-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S3x4194304 : Shape := ⟨2, ![3, 4194304]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S3x4194304 : S_.BroadcastsInDim S3x4194304 (![] : Fin 0 → Fin S3x4194304.rank)
  reducesTo_S3x4194304_S_d0_1 : S3x4194304.ReducesTo [0, 1] S_

variable [Facts]

def fn_part1 {F : FTy → Type} [FloatOps F] (main_arg4 : FVec F S4194304 .f32) (main_v13 : IVec S_ 1) (main_v16 : IVec S3x4194304 1) : IVec S_ 1 :=
  let main_c_5 : IVec S_ 1 := constantI S_ 1 1#1
  let main_v17 : IVec S_ 1 := (fun x v => Host.reduce IntOp.andi x v reducesTo_S3x4194304_S_d0_1 h_S_) main_v16 main_c_5
  let main_v18 : IVec S_ 1 := andi main_v13 main_v17
  let main_v19 : FVec F S4194304 .f32 := Host.absf main_arg4
  let main_cst_6 : FVec F S_ .f32 := constant S_ .f32 0x7F800000#32
  let main_v20 : FVec F S4194304 .f32 := broadcastInDim S4194304 ![] bcast_S_S4194304 main_cst_6
  let main_v21 : IVec S4194304 1 := cmpf .olt main_v19 main_v20
  let main_c_7 : IVec S_ 1 := constantI S_ 1 1#1
  let main_v22 : IVec S_ 1 := (fun x v => Host.reduce IntOp.andi x v reducesTo_S4194304_S_d0 h_S_) main_v21 main_c_7
  let main_v23 : IVec S_ 1 := andi main_v18 main_v22
  main_v23

def fn {F : FTy → Type} [FloatOps F] (main_arg0 : FVec F S4194304 .f32) (main_arg1 : FVec F S3x4194304 .f32) (main_arg2 : FVec F S3x4194304 .f32) (main_arg3 : FVec F S3x4194304 .f32) (main_arg4 : FVec F S4194304 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S3x4194304 .f32 := Host.absf main_arg1
  let main_cst_0 : FVec F S_ .f32 := constant S_ .f32 0x7F800000#32
  let main_v5 : FVec F S3x4194304 .f32 := broadcastInDim S3x4194304 ![] bcast_S_S3x4194304 main_cst_0
  let main_v6 : IVec S3x4194304 1 := cmpf .olt main_v4 main_v5
  let main_c_1 : IVec S_ 1 := constantI S_ 1 1#1
  let main_v7 : IVec S_ 1 := (fun x v => Host.reduce IntOp.andi x v reducesTo_S3x4194304_S_d0_1 h_S_) main_v6 main_c_1
  let main_v8 : IVec S_ 1 := andi main_v3 main_v7
  let main_v9 : FVec F S3x4194304 .f32 := Host.absf main_arg2
  let main_cst_2 : FVec F S_ .f32 := constant S_ .f32 0x7F800000#32
  let main_v10 : FVec F S3x4194304 .f32 := broadcastInDim S3x4194304 ![] bcast_S_S3x4194304 main_cst_2
  let main_v11 : IVec S3x4194304 1 := cmpf .olt main_v9 main_v10
  let main_c_3 : IVec S_ 1 := constantI S_ 1 1#1
  let main_v12 : IVec S_ 1 := (fun x v => Host.reduce IntOp.andi x v reducesTo_S3x4194304_S_d0_1 h_S_) main_v11 main_c_3
  let main_v13 : IVec S_ 1 := andi main_v8 main_v12
  let main_v14 : FVec F S3x4194304 .f32 := Host.absf main_arg3
  let main_cst_4 : FVec F S_ .f32 := constant S_ .f32 0x7F800000#32
  let main_v15 : FVec F S3x4194304 .f32 := broadcastInDim S3x4194304 ![] bcast_S_S3x4194304 main_cst_4
  let main_v16 : IVec S3x4194304 1 := cmpf .olt main_v14 main_v15
  fn_part1 (F := F) main_arg4 main_v13 main_v16
-- ==== Kernel.lean ====
abbrev S4194304 : Shape := ⟨1, ![4194304]⟩
abbrev S3x4194304 : Shape := ⟨2, ![3, 4194304]⟩
abbrev S2x8x128 : Shape := ⟨3, ![2, 8, 128]⟩
abbrev S3x65536 : Shape := ⟨2, ![3, 65536]⟩
abbrev S65536 : Shape := ⟨1, ![65536]⟩
abbrev S1x8x128 : Shape := ⟨3, ![1, 8, 128]⟩
abbrev S8x128 : Shape := ⟨2, ![8, 128]⟩
abbrev S1x65536 : Shape := ⟨2, ![1, 65536]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 33
  | .vmem => 16
  | .smem => 0
  | _ => 0

abbrev bufTy : (tb : Table) → Fin (tcTables nBuf tb) → BufTy
  | .hbm, ⟨0, _⟩ => ⟨S4194304, .f32⟩
  | .hbm, ⟨1, _⟩ => ⟨S3x4194304, .f32⟩
  | .hbm, ⟨2, _⟩ => ⟨S3x4194304, .f32⟩
  | .hbm, ⟨3, _⟩ => ⟨S3x4194304, .f32⟩
  | .hbm, ⟨4, _⟩ => ⟨S4194304, .f32⟩
  | .hbm, ⟨5, _⟩ => ⟨S2x8x128, .f32⟩
  | .hbm, ⟨6, _⟩ => ⟨S2x8x128, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S2x1x1, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S3x65536, .f32⟩
  | .local _ .vmem, ⟨1, _⟩ => ⟨S3x65536, .f32⟩
  | .local _ .vmem, ⟨2, _⟩ => ⟨S3x65536, .f32⟩
  | .local _ .vmem, ⟨3, _⟩ => ⟨S3x65536, .f32⟩
  | .local _ .vmem, ⟨4, _⟩ => ⟨S3x65536, .f32⟩
  | .local _ .vmem, ⟨5, _⟩ => ⟨S3x65536, .f32⟩
  | .local _ .vmem, ⟨6, _⟩ => ⟨S65536, .f32⟩
  | .local _ .vmem, ⟨7, _⟩ => ⟨S65536, .f32⟩
  | .local _ .vmem, ⟨8, _⟩ => ⟨S65536, .f32⟩
  | .local _ .vmem, ⟨9, _⟩ => ⟨S65536, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S65536_S65536_0 : ∀ a, (![0] : Fin 1 → Nat) a + S65536.size a ≤ S65536.size a
  h_S65536 : 0 < S65536.numel
  natLt_1_32 : 1 < 32
  shapeCasts_S65536_S1x65536 : S65536.ShapeCasts S1x65536
  reduces_S1x65536_S1 : S1x65536.Reduces [1] S1
  shapeCasts_S1_S1x1 : S1.ShapeCasts S1x1
  inpos_S1x1_p0_0 : ∀ a, (![0, 0] : Fin 2 → Nat) a < S1x1.size a
  inb_S3x65536_S3x65536_0_0 : ∀ a, (![0, 0] : Fin 2 → Nat) a + S3x65536.size a ≤ S3x65536.size a
  h_S3x65536 : 0 < S3x65536.numel
  broadcasts_S1x65536_S3x65536 : S1x65536.Broadcasts S3x65536
  reduces_S3x65536_S65536 : S3x65536.Reduces [0] S65536
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x4194304.size a
  hwx0_0 : ∀ i : grid0.Coords, EltTy.bits .f32 = 32 ∨ (Rect.block (s := S3x4194304) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x65536.size a ≤ S3x4194304.size a
  hwx0_1 : ∀ i : grid0.Coords, EltTy.bits .f32 = 32 ∨ (Rect.block (s := S3x4194304) S3x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x65536.size a ≤ S3x4194304.size a
  hwx0_2 : ∀ i : grid0.Coords, EltTy.bits .f32 = 32 ∨ (Rect.block (s := S3x4194304) S3x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S65536.size a ≤ S4194304.size a
  hwx0_3 : ∀ i : grid0.Coords, EltTy.bits .f32 = 32 ∨ (Rect.block (s := S4194304) S65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S65536.size a ≤ S4194304.size a
  hwx0_4 : ∀ i : grid0.Coords, EltTy.bits .f32 = 32 ∨ (Rect.block (s := S4194304) S65536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

abbrev win0_0 : Pipeline.Window sig grid0 :=
  Pipeline.Window.ofSpec (Memref.whole main_arg1) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S65536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S65536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4194304 : Shape := ⟨1, ![4194304]⟩
abbrev S3x4194304 : Shape := ⟨2, ![3, 4194304]⟩
abbrev S_ : Shape := ⟨0, ![]⟩
abbrev S1x4194304 : Shape := ⟨2, ![1, 4194304]⟩

abbrev nBuf : Space → Nat
  | .hbm => 104
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S3x4194304, .f32⟩
  | .hbm, ⟨2, _⟩ => ⟨S3x4194304, .f32⟩
  | .hbm, ⟨3, _⟩ => ⟨S3x4194304, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .i1⟩
  | .hbm, ⟨8, _⟩ => ⟨S4194304, .f32⟩
  | .hbm, ⟨9, _⟩ => ⟨S_, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S_, .f32⟩
  | .hbm, ⟨14, _⟩ => ⟨S_, .f32⟩
  | .hbm, ⟨15, _⟩ => ⟨S4194304, .f32⟩
  | .hbm, ⟨16, _⟩ => ⟨S4194304, .f32⟩
  | .hbm, ⟨17, _⟩ => ⟨S_, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S_, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S_, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S3x4194304, .f32⟩
  | .hbm, ⟨38, _⟩ => ⟨S3x4194304, .f32⟩
  | .hbm, ⟨39, _⟩ => ⟨S_, .f32⟩
  | .hbm, ⟨40, _⟩ => ⟨S3x4194304, .f32⟩
  | .hbm, ⟨41, _⟩ => ⟨S3x4194304, .f32⟩
  | .hbm, ⟨42, _⟩ => ⟨S1x4194304, .f32⟩
  | .hbm, ⟨43, _⟩ => ⟨S_, .f32⟩
  | .hbm, ⟨44, _⟩ => ⟨S1x4194304, .f32⟩
  | .hbm, ⟨45, _⟩ => ⟨S1x4194304, .f32⟩
  | .hbm, ⟨46, _⟩ => ⟨S3x4194304, .f32⟩
  | .hbm, ⟨47, _⟩ => ⟨S3x4194304, .f32⟩
  | .hbm, ⟨48, _⟩ => ⟨S3x4194304, .f32⟩
  | .hbm, ⟨49, _⟩ => ⟨S3x4194304, .f32⟩
  | .hbm, ⟨50, _⟩ => ⟨S3x4194304, .f32⟩
  | .hbm, ⟨51, _⟩ => ⟨S_, .f32⟩
  | .hbm, ⟨52, _⟩ => ⟨S3x4194304, .f32⟩
  | .hbm, ⟨53, _⟩ => ⟨S3x4194304, .f32⟩
  | .hbm, ⟨54, _⟩ => ⟨S_, .f32⟩
  | .hbm, ⟨55, _⟩ => ⟨S3x4194304, .f32⟩
  | .hbm, ⟨56, _⟩ => ⟨S3x4194304, .f32⟩
  | .hbm, ⟨57, _⟩ => ⟨S_, .f32⟩
  | .hbm, ⟨58, _⟩ => ⟨S1x4194304, .f32⟩
  | .hbm, ⟨59, _⟩ => ⟨S1x4194304, .f32⟩
  | .hbm, ⟨60, _⟩ => ⟨S3x4194304, .f32⟩
  | .hbm, ⟨61, _⟩ => ⟨S3x4194304, .f32⟩
  | .hbm, ⟨62, _⟩ => ⟨S3x4194304, .f32⟩
  | .hbm, ⟨63, _⟩ => ⟨S3x4194304, .f32⟩
  | .hbm, ⟨64, _⟩ => ⟨S3x4194304, .f32⟩
  | .hbm, ⟨65, _⟩ => ⟨S_, .f32⟩
  | .hbm, ⟨66, _⟩ => ⟨S3x4194304, .f32⟩
  | .hbm, ⟨67, _⟩ => ⟨S3x4194304, .f32⟩
  | .hbm, ⟨68, _⟩ => ⟨S_, .f32⟩
  | .hbm, ⟨69, _⟩ => ⟨S3x4194304, .f32⟩
  | .hbm, ⟨70, _⟩ => ⟨S3x4194304, .f32⟩
  | .hbm, ⟨71, _⟩ => ⟨S3x4194304, .f32⟩
  | .hbm, ⟨72, _⟩ => ⟨S_, .f32⟩
  | .hbm, ⟨73, _⟩ => ⟨S3x4194304, .f32⟩
  | .hbm, ⟨74, _⟩ => ⟨S3x4194304, .f32⟩
  | .hbm, ⟨75, _⟩ => ⟨S3x4194304, .f32⟩
  | .hbm, ⟨76, _⟩ => ⟨S_, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S4194304, .f32⟩
  | .hbm, ⟨82, _⟩ => ⟨S_, .f32⟩
  | .hbm, ⟨83, _⟩ => ⟨S4194304, .f32⟩
  | .hbm, ⟨84, _⟩ => ⟨S4194304, .i1⟩
  | .hbm, ⟨85, _⟩ => ⟨S4194304, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4194304, .f32⟩
  | .hbm, ⟨91, _⟩ => ⟨S4194304, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_9 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_16 : Ref sig .tc := ⟨.hbm, 76, rfl⟩
abbrev main_v50 : Ref sig .tc := ⟨.hbm, 77, rfl⟩
abbrev main_cst_17 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_18 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_cst_20 : Ref sig .tc := ⟨.hbm, 88, rfl⟩
abbrev main_call2_v0 : Ref sig .tc := ⟨.hbm, 89, rfl⟩
abbrev main_call2_v1 : Ref sig .tc := ⟨.hbm, 90, rfl⟩
abbrev main_v58 : Ref sig .tc := ⟨.hbm, 91, rfl⟩
abbrev main_cst_21 : Ref sig .tc := ⟨.hbm, 92, rfl⟩
abbrev main_v59 : Ref sig .tc := ⟨.hbm, 93, rfl⟩
abbrev main_cst_22 : Ref sig .tc := ⟨.hbm, 94, rfl⟩
abbrev main_v60 : Ref sig .tc := ⟨.hbm, 95, rfl⟩
abbrev main_cst_23 : Ref sig .tc := ⟨.hbm, 96, rfl⟩
abbrev main_v61 : Ref sig .tc := ⟨.hbm, 97, rfl⟩
abbrev main_v62 : Ref sig .tc := ⟨.hbm, 98, rfl⟩
abbrev main_cst_24 : Ref sig .tc := ⟨.hbm, 99, rfl⟩
abbrev main_call3_v0 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  reducesTo_S4194304_S_d0 : S4194304.ReducesTo [0] S_
  h_S_ : 0 < S_.numel
  bcast_S_S3x4194304 : S_.BroadcastsInDim S3x4194304 (![] : Fin 0 → Fin S3x4194304.rank)
  bcast_S4194304_S1x4194304_1 : S4194304.BroadcastsInDim S1x4194304 (![1] : Fin 1 → Fin S1x4194304.rank)
  bcast_S_S1x4194304 : S_.BroadcastsInDim S1x4194304 (![] : Fin 0 → Fin S1x4194304.rank)
  bcast_S1x4194304_S3x4194304_0_1 : S1x4194304.BroadcastsInDim S3x4194304 (![0, 1] : Fin 2 → Fin S3x4194304.rank)
  reducesTo_S3x4194304_S4194304_d0 : S3x4194304.ReducesTo [0] S4194304

variable [Facts₀]

class Facts : Prop extends Facts₀ where

variable [Facts]
-- ==== Proof.LossTerms.lean ====
/-
  The loss, term by term, over the extended reals.

  One example contributes three numbers. With t the indicator of a positive true value (the comparison's bit read as 0
  or 1), p the predicted purchase probability, and three logistic mixture components (location mu, scale sg, weight w):

    bce p tv   = t * max (log p) (-100) + (1 - t) * max (log (1 - p)) (-100)
    comp ...   = w * max (sigmoid ((tv + h - mu) / (sg + eps)) - sigmoid ((tv - h - mu) / (sg + eps))) eps
    ll lik tv  = log (lik + eps) where the true value is positive, 0 elsewhere     (lik the sum of the three comp)
    paid tv    = t

  and the loss is finish S1 S2 S3 = (-S1) / B + -(S2 / max S3 1 where S3 > 0, else 0) of the three sums over all
  examples. The float literals stay the words both programs print: only +0.0, 1.0 and B = 2^22 are ever evaluated.

  Also here: the laws that join the two programs' spellings of one value (a one-bit word widened and read signed is the
  bit read unsigned; the negation of a quotient by a nonzero real is the quotient of the negation; the sigmoid is
  1 / (1 + e^(-x)) at every extended real), and a sum over the indices of a vector as a sum over its positions.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-! ## The three words that are evaluated -/

/-- The word of +0.0 is the extended real 0. -/
theorem word_zero : Ideal.ofBits .f32 0x00000000#32 = 0 := Ideal.ofBits_zero_f32

/-- The word of 1.0 is the extended real 1. -/
theorem word_one : Ideal.ofBits .f32 0x3F800000#32 = 1 := by
  simp [Ideal.ofBits, Ideal.ieee, -EReal.coe_mul]; norm_num

/-- The word 0x4A800000 is the number of examples, 2^22 = 4194304. -/
theorem word_count : Ideal.ofBits .f32 0x4A800000#32 = ((4194304 : ℝ) : EReal) := by
  simp [Ideal.ofBits, Ideal.ieee, -EReal.coe_mul]; norm_num

/-! ## One example's terms -/

/-- Is the true value positive? The comparison's bit. -/
def paidBit (tv : EReal) : BitVec 1 := Ideal.cmp .ogt tv (Ideal.ofBits .f32 0x00000000#32)

/-- The indicator of a positive true value: that bit as 0 or 1. -/
def paid (tv : EReal) : EReal := (((paidBit tv).toNat : ℝ) : EReal)

/-- The purchase term: the binary cross-entropy's two logarithms, each clamped below at -100. -/
def bce (p tv : EReal) : EReal :=
  paid tv * max (Ideal.log p) (Ideal.ofBits .f32 0xC2C80000#32)
    + (Ideal.ofBits .f32 0x3F800000#32 - paid tv)
      * max (Ideal.log (Ideal.ofBits .f32 0x3F800000#32 - p)) (Ideal.ofBits .f32 0xC2C80000#32)

/-- One mixture component: its weight times the logistic mass of the bin of half-width 0.05 around the true value,
    floored at 1e-8; the scale enters as 1 / (sg + 1e-8). -/
def comp (mu sg w tv : EReal) : EReal :=
  w * max
    (Ideal.logistic ((tv + Ideal.ofBits .f32 0x3D4CCCCD#32 - mu)
        * Ideal.div (Ideal.ofBits .f32 0x3F800000#32) (sg + Ideal.ofBits .f32 0x322BCC77#32))
      - Ideal.logistic ((tv - Ideal.ofBits .f32 0x3D4CCCCD#32 - mu)
        * Ideal.div (Ideal.ofBits .f32 0x3F800000#32) (sg + Ideal.ofBits .f32 0x322BCC77#32)))
    (Ideal.ofBits .f32 0x322BCC77#32)

/-- The likelihood term: the logarithm of the mixture's mass (plus 1e-8) where the true value is positive, 0 elsewhere. -/
def ll (lik tv : EReal) : EReal :=
  Scalar.select (paidBit tv) (Ideal.log (lik + Ideal.ofBits .f32 0x322BCC77#32)) (Ideal.ofBits .f32 0x00000000#32)

/-- The loss from the three sums: minus the mean purchase term, minus the mean likelihood term over the paid examples
    (0 when there is none). -/
def finish (S1 S2 S3 : EReal) : EReal :=
  Ideal.div (-S1) (Ideal.ofBits .f32 0x4A800000#32)
    + -(Scalar.select (Ideal.cmp .ogt S3 (Ideal.ofBits .f32 0x00000000#32))
        (Ideal.div S2 (max S3 (Ideal.ofBits .f32 0x3F800000#32))) (Ideal.ofBits .f32 0x00000000#32))

/-! ## The laws between the two spellings -/

/-- A one-bit word widened to 32 bits and read signed is the bit read unsigned. -/
theorem signed_wide_bit (b : BitVec 1) : (((b.setWidth 32).toInt : ℝ) : EReal) = (((b.toNat : ℕ) : ℝ) : EReal) := by
  have h : ∀ b : BitVec 1, (b.setWidth 32).toInt = (b.toNat : ℤ) := by decide
  rw [h b, Int.cast_natCast]

/-- Dividing by the number of examples commutes with negation, at the infinities too. -/
theorem neg_div_count (x : EReal) :
    -(Ideal.div x (Ideal.ofBits .f32 0x4A800000#32)) = Ideal.div (-x) (Ideal.ofBits .f32 0x4A800000#32) := by
  rw [word_count, Ideal.div_coe (by norm_num : (4194304 : ℝ) ≠ 0), Ideal.div_coe (by norm_num : (4194304 : ℝ) ≠ 0),
    EReal.neg_mul]

/-- The sigmoid spelt out with the word of 1.0: 1 / (1 + e^(-x)), at every extended real. -/
theorem logistic_spelt (x : EReal) :
    Ideal.div (Ideal.ofBits .f32 0x3F800000#32) (Ideal.ofBits .f32 0x3F800000#32 + Ideal.exp (-x)) = Ideal.logistic x := by
  rw [word_one]; rfl

/-! ## The host's spellings of the same terms -/

/-- The purchase term as the host spells it: p + 0.0 under the logarithm, the clamp's arguments the other way round. -/
theorem bce_host (p tv : EReal) :
    (((Ideal.cmp .ogt tv (Ideal.ofBits .f32 0x00000000#32)).toNat : ℝ) : EReal)
        * max (Ideal.ofBits .f32 0xC2C80000#32) (Ideal.log (p + Ideal.ofBits .f32 0x00000000#32))
      + (Ideal.ofBits .f32 0x3F800000#32 - (((Ideal.cmp .ogt tv (Ideal.ofBits .f32 0x00000000#32)).toNat : ℝ) : EReal))
        * max (Ideal.ofBits .f32 0xC2C80000#32) (Ideal.log (Ideal.ofBits .f32 0x3F800000#32 - p))
      = bce p tv := by
  have h : p + Ideal.ofBits .f32 0x00000000#32 = p := by rw [word_zero, add_zero]
  unfold bce paid paidBit
  rw [h, max_comm (Ideal.ofBits .f32 0xC2C80000#32) (Ideal.log p),
    max_comm (Ideal.ofBits .f32 0xC2C80000#32) (Ideal.log (Ideal.ofBits .f32 0x3F800000#32 - p))]

/-- A mixture component as the host spells it: each sigmoid written out as 1 / (1 + e^(-x)). -/
theorem comp_host (mu sg w tv : EReal) :
    w * max
      (Ideal.div (Ideal.ofBits .f32 0x3F800000#32) (Ideal.ofBits .f32 0x3F800000#32
          + Ideal.exp (-((tv + Ideal.ofBits .f32 0x3D4CCCCD#32 - mu)
            * Ideal.div (Ideal.ofBits .f32 0x3F800000#32) (sg + Ideal.ofBits .f32 0x322BCC77#32))))
        - Ideal.div (Ideal.ofBits .f32 0x3F800000#32) (Ideal.ofBits .f32 0x3F800000#32
          + Ideal.exp (-((tv - Ideal.ofBits .f32 0x3D4CCCCD#32 - mu)
            * Ideal.div (Ideal.ofBits .f32 0x3F800000#32) (sg + Ideal.ofBits .f32 0x322BCC77#32)))))
      (Ideal.ofBits .f32 0x322BCC77#32) = comp mu sg w tv := by
  unfold comp
  rw [logistic_spelt, logistic_spelt]

/-- The likelihood term as the host spells it: the mixture's sum started from the word of +0.0. -/
theorem ll_host (lik tv : EReal) :
    Scalar.select (Ideal.cmp .ogt tv (Ideal.ofBits .f32 0x00000000#32))
        (Ideal.log (Ideal.ofBits .f32 0x00000000#32 + lik + Ideal.ofBits .f32 0x322BCC77#32)) (Ideal.ofBits .f32 0x00000000#32)
      = ll lik tv := by
  unfold ll paidBit
  rw [word_zero, zero_add]

/-- The loss from the three sums as the host spells it: each sum started from the word of +0.0, the mean negated after
    the division. -/
theorem finish_host (S1 S2 S3 : EReal) :
    -(Ideal.div (Ideal.ofBits .f32 0x00000000#32 + S1) (Ideal.ofBits .f32 0x4A800000#32))
      + -(Scalar.select (Ideal.cmp .ogt (Ideal.ofBits .f32 0x00000000#32 + S3) (Ideal.ofBits .f32 0x00000000#32))
        (Ideal.div (Ideal.ofBits .f32 0x00000000#32 + S2)
          (max (Ideal.ofBits .f32 0x00000000#32 + S3) (Ideal.ofBits .f32 0x3F800000#32))) (Ideal.ofBits .f32 0x00000000#32))
      = finish S1 S2 S3 := by
  unfold finish
  rw [neg_div_count, word_zero]
  simp only [zero_add]

/-! ## The whole loss -/

/-- The loss of 4194304 examples: p and the true values as vectors, mu, sigma and weight as three rows each. -/
def total (p tv : (⟨1, ![4194304]⟩ : Shape).Idx → EReal) (mu sg w : (⟨2, ![3, 4194304]⟩ : Shape).Idx → EReal) : EReal :=
  finish (∑ a : Fin 4194304, bce (p (ix1 a)) (tv (ix1 a)))
    (∑ a : Fin 4194304, ll (∑ k : Fin 3, comp (mu (ix2 k a)) (sg (ix2 k a)) (w (ix2 k a)) (tv (ix1 a))) (tv (ix1 a)))
    (∑ a : Fin 4194304, paid (tv (ix1 a)))

/-! ## A sum over a vector's indices is the sum over its positions -/

/-- The indices of a vector of n entries are its n positions. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

end Cert.Loss

end
-- ==== Proof.RefValue.lean ====
/-
  The reference's result is the loss of its arguments.

  The host program is read one operation at a time (the read-at-an-index lemmas of the run's stages). Per example its
  purchase term, its mixture component and its likelihood term are the loss's terms in the host's spelling; its three
  reductions are the initial value 0 plus the sums over all 4194304 examples (the mixture's a sum over the three rows);
  the last scalar lines are the loss from the three sums, the mean negated after the division.
-/
import proofs.«112673_j86955907875162_1_alg».proof.Proof.RefRead
import proofs.«112673_j86955907875162_1_alg».proof.Proof.LossTerms

noncomputable section

open scoped BigOperators

namespace Cert.ReferenceIdeal.RefValue

open Idealize.ShloMosaic Idealize.ShloMosaic.ValueIdx Cert.ReferenceIdeal Cert.ReferenceIdeal.ReadP

variable (x0 x4 : (⟨S4194304, .f32⟩ : BufTy).Contents (Elt Ideal)) (x1 x2 x3 : (⟨S3x4194304, .f32⟩ : BufTy).Contents (Elt Ideal))

/-- The purchase term of example j. -/
theorem purchase_at (j : S4194304.Idx) : val_main_v15 (F := Ideal) x0 x4 j = Cert.Loss.bce (x0 j) (x4 j) := by
  simp only [val_main_v15_apply, val_main_v11_apply, val_main_v14_apply, val_main_v13_apply, val_main_v12_apply,
    val_main_cst_4_apply, val_main_v10_apply, val_main_call1_v1_apply, val_main_call1_v0_apply, val_main_cst_3_apply,
    val_main_v9_apply, val_main_v8_apply, val_main_v7_apply, val_main_cst_2_apply, val_main_v6_apply,
    val_main_call0_v1_apply, val_main_call0_v0_apply, val_main_cst_1_apply, val_main_v5_apply, val_main_v4_apply,
    val_main_v3_apply, val_main_cst_0_apply, val_main_v2_apply, val_main_v1_apply, val_main_v0_apply, val_main_cst_apply]
  exact Cert.Loss.bce_host (x0 j) (x4 j)

/-- The indicator of example j. -/
theorem paid_at (j : S4194304.Idx) : val_main_v56 (F := Ideal) x4 j = Cert.Loss.paid (x4 j) := by
  simp only [val_main_v56_apply, val_main_v55_apply, val_main_v54_apply, val_main_cst_18_apply]
  rfl

/-- The reduction down the three rows reads column a of row k. -/
theorem idx_col (k : Fin 3) (a : Fin 4194304) : idx_main_v50 (ix1 a) k = ix2 k a :=
  funext fun d => Fin.ext (by match d with | ⟨0, _⟩ => rfl | ⟨1, _⟩ => rfl)

/-- The true value's row, repeated down the three rows, read at (k, a) is the true value of example a. -/
theorem idx_row_upper (k : Fin 3) (a : Fin 4194304) : idx_main_v23 (idx_main_v26 (ix2 k a)) = ix1 a :=
  funext fun d => Fin.ext (by match d with | ⟨0, _⟩ => rfl)

theorem idx_row_lower (k : Fin 3) (a : Fin 4194304) : idx_main_v23 (idx_main_v37 (ix2 k a)) = ix1 a :=
  funext fun d => Fin.ext (by match d with | ⟨0, _⟩ => rfl)

/-- Component k of example a. -/
theorem comp_at (k : Fin 3) (a : Fin 4194304) :
    val_main_v49 (F := Ideal) x1 x2 x3 x4 (ix2 k a)
      = Cert.Loss.comp (x1 (ix2 k a)) (x2 (ix2 k a)) (x3 (ix2 k a)) (x4 (ix1 a)) := by
  simp only [val_main_v49_apply, val_main_v48_apply, val_main_v47_apply, val_main_cst_15_apply, val_main_v46_apply,
    val_main_v45_apply, val_main_v44_apply, val_main_cst_14_apply, val_main_v43_apply, val_main_v42_apply,
    val_main_cst_13_apply, val_main_v41_apply, val_main_v40_apply, val_main_v39_apply, val_main_v38_apply,
    val_main_v37_apply, val_main_v36_apply, val_main_v35_apply, val_main_cst_12_apply, val_main_v34_apply,
    val_main_v33_apply, val_main_cst_11_apply, val_main_v32_apply, val_main_v31_apply, val_main_cst_10_apply,
    val_main_v30_apply, val_main_v29_apply, val_main_v28_apply, val_main_v27_apply, val_main_v26_apply,
    val_main_v25_apply, val_main_v24_apply, val_main_cst_9_apply, val_main_v23_apply, val_main_v22_apply,
    val_main_v21_apply, val_main_cst_8_apply, val_main_v20_apply, val_main_v19_apply, val_main_cst_7_apply,
    idx_row_upper, idx_row_lower]
  exact Cert.Loss.comp_host (x1 (ix2 k a)) (x2 (ix2 k a)) (x3 (ix2 k a)) (x4 (ix1 a))

/-- The likelihood term of example a. -/
theorem likelihood_at (a : Fin 4194304) :
    val_main_v58 (F := Ideal) x1 x2 x3 x4 (ix1 a)
      = Cert.Loss.ll (∑ k : Fin 3, Cert.Loss.comp (x1 (ix2 k a)) (x2 (ix2 k a)) (x3 (ix2 k a)) (x4 (ix1 a))) (x4 (ix1 a)) := by
  have h50 : val_main_v50 (F := Ideal) x1 x2 x3 x4 (ix1 a)
      = Ideal.ofBits .f32 0x00000000#32
        + ∑ k : Fin 3, Cert.Loss.comp (x1 (ix2 k a)) (x2 (ix2 k a)) (x3 (ix2 k a)) (x4 (ix1 a)) := by
    refine (val_main_v50_apply x1 x2 x3 x4 (ix1 a)).trans ?_
    refine congrArg₂ (· + ·) (val_main_cst_16_apply _) (Finset.sum_congr rfl fun k _ => ?_)
    exact (congrArg _ (idx_col k a)).trans (comp_at x4 x1 x2 x3 k a)
  have h54 : val_main_v54 (F := Ideal) (ix1 a) = Ideal.ofBits .f32 0x00000000#32 :=
    (val_main_v54_apply _).trans (val_main_cst_18_apply _)
  have h51 : val_main_v51 (F := Ideal) (ix1 a) = Ideal.ofBits .f32 0x322BCC77#32 :=
    (val_main_v51_apply _).trans (val_main_cst_17_apply _)
  have hc2 : val_main_call2_v1 (F := Ideal) (ix1 a) = Ideal.ofBits .f32 0x00000000#32 :=
    (val_main_call2_v1_apply _).trans ((val_main_call2_v0_apply _).trans (val_main_cst_20_apply _))
  rw [val_main_v58_apply, val_main_v55_apply, val_main_v53_apply, val_main_v52_apply, h50, h54, h51, hc2]
  exact Cert.Loss.ll_host _ (x4 (ix1 a))

/-- The three reductions: 0 plus the sum over all examples. -/
theorem purchase_sum (i : S_.Idx) :
    val_main_v16 (F := Ideal) x0 x4 i
      = Ideal.ofBits .f32 0x00000000#32 + ∑ a : Fin 4194304, Cert.Loss.bce (x0 (ix1 a)) (x4 (ix1 a)) := by
  refine (val_main_v16_apply x0 x4 i).trans ?_
  refine congrArg₂ (· + ·) (val_main_cst_5_apply _) ?_
  exact (Cert.Loss.sum_idx1 _).trans (Finset.sum_congr rfl fun a _ => purchase_at x0 x4 (ix1 a))

theorem paid_sum (i : S_.Idx) :
    val_main_v57 (F := Ideal) x4 i
      = Ideal.ofBits .f32 0x00000000#32 + ∑ a : Fin 4194304, Cert.Loss.paid (x4 (ix1 a)) := by
  refine (val_main_v57_apply x4 i).trans ?_
  refine congrArg₂ (· + ·) (val_main_cst_19_apply _) ?_
  exact (Cert.Loss.sum_idx1 _).trans (Finset.sum_congr rfl fun a _ => paid_at x4 (ix1 a))

theorem likelihood_sum (i : S_.Idx) :
    val_main_v59 (F := Ideal) x1 x2 x3 x4 i
      = Ideal.ofBits .f32 0x00000000#32 + ∑ a : Fin 4194304, Cert.Loss.ll
          (∑ k : Fin 3, Cert.Loss.comp (x1 (ix2 k a)) (x2 (ix2 k a)) (x3 (ix2 k a)) (x4 (ix1 a))) (x4 (ix1 a)) := by
  refine (val_main_v59_apply x1 x2 x3 x4 i).trans ?_
  refine congrArg₂ (· + ·) (val_main_cst_21_apply _) ?_
  exact (Cert.Loss.sum_idx1 _).trans (Finset.sum_congr rfl fun a _ => likelihood_at x4 x1 x2 x3 a)

/-- The reference's result: the loss of its five arguments. -/
theorem result_eq :
    val_main_v65 (F := Ideal) x0 x1 x2 x3 x4 = fun _ => Cert.Loss.total x0 x4 x1 x2 x3 := by
  funext i
  rw [val_main_v65_apply, val_main_v18_apply, val_main_v17_apply, val_main_v64_apply, val_main_v63_apply, val_main_v60_apply,
    val_main_v62_apply, val_main_v61_apply, purchase_sum, paid_sum, likelihood_sum, val_main_cst_6_apply, val_main_cst_22_apply,
    val_main_cst_23_apply, val_main_call3_v0_apply, val_main_cst_24_apply]
  unfold Cert.Loss.total
  generalize (∑ a : Fin 4194304, Cert.Loss.bce (x0 (ix1 a)) (x4 (ix1 a))) = S1
  generalize (∑ a : Fin 4194304, Cert.Loss.ll
    (∑ k : Fin 3, Cert.Loss.comp (x1 (ix2 k a)) (x2 (ix2 k a)) (x3 (ix2 k a)) (x4 (ix1 a))) (x4 (ix1 a))) = S2
  generalize (∑ a : Fin 4194304, Cert.Loss.paid (x4 (ix1 a))) = S3
  exact Cert.Loss.finish_host S1 S2 S3

end Cert.ReferenceIdeal.RefValue

end
-- ==== Proof.KernelPieces.lean ====
/-
  What one grid point leaves in the three accumulator blocks.

  The body's run at a point ends with each accumulator's staging buffer holding the stores it made, read back. At the
  first tile of a half (the reset case) the buffer is first stored the zero block and then that block plus the tile's
  number; at any later tile (the carry case) its one store is the buffer's previous contents plus the tile's number. The
  tile's number is computed from the point's input blocks alone: the loads read whole staging buffers.
-/
import proofs.«112673_j86955907875162_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Past a half's first tile the purchase accumulator ends at its contents plus the tile's purchase number. -/
theorem out_B_5 (c : Dev nD) (i : grid0.Coords)
    (a2 : Memref sig .tc .vmem S3x65536 .f32) (h2 : a2.IsWhole) (a3 : Memref sig .tc .vmem S3x65536 .f32) (h3 : a3.IsWhole)
    (a4 : Memref sig .tc .vmem S3x65536 .f32) (h4 : a4.IsWhole) (a5 : Memref sig .tc .vmem S65536 .f32) (h5 : a5.IsWhole)
    (a6 : Memref sig .tc .vmem S65536 .f32) (h6 : a6.IsWhole) (a7 : Memref sig .tc .vmem S1x8x128 .f32) (h7 : a7.IsWhole)
    (a8 : Memref sig .tc .vmem S1x8x128 .f32) (h8 : a8.IsWhole) (a9 : Memref sig .tc .vmem S1x8x128 .f32) (h9 : a9.IsWhole)
    (hc : ¬cond0_0 i) (x0 x1 x2 : Vec F S3x65536 .f32) (x3 x4 : Vec F S65536 .f32) (xo5 xo6 xo7 : Vec F S1x8x128 .f32) :
    out0_B_5 c i a2 h2 a3 h3 a4 h4 a5 h5 a6 h6 a7 h7 a8 h8 a9 h9 hc x0 x1 x2 x3 x4 xo5 xo6 xo7 = k0_pay12 (k0_pay6 x3 x4) xo5 := by
  unfold out0_B_5
  rw [View.read_writes_eq_canon _ _ _ (cover0_B_5 c i a2 h2 a3 h3 a4 h4 a5 h5 a6 h6 a7 h7 a8 h8 a9 h9 hc x0 x1 x2 x3 x4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, View.ld_unit_zero (S := S1x8x128) hz3, View.ld_unit_zero (S := S65536) hz1,
    View.ld_unit_zero (S := S3x65536) hz2]

/-- At a half's first tile the purchase accumulator is reset to the zero block and ends at that plus the tile's purchase number. -/
theorem out_A_5 (c : Dev nD) (i : grid0.Coords)
    (a2 : Memref sig .tc .vmem S3x65536 .f32) (h2 : a2.IsWhole) (a3 : Memref sig .tc .vmem S3x65536 .f32) (h3 : a3.IsWhole)
    (a4 : Memref sig .tc .vmem S3x65536 .f32) (h4 : a4.IsWhole) (a5 : Memref sig .tc .vmem S65536 .f32) (h5 : a5.IsWhole)
    (a6 : Memref sig .tc .vmem S65536 .f32) (h6 : a6.IsWhole) (a7 : Memref sig .tc .vmem S1x8x128 .f32) (h7 : a7.IsWhole)
    (a8 : Memref sig .tc .vmem S1x8x128 .f32) (h8 : a8.IsWhole) (a9 : Memref sig .tc .vmem S1x8x128 .f32) (h9 : a9.IsWhole)
    (hc : cond0_0 i) (x0 x1 x2 : Vec F S3x65536 .f32) (x3 x4 : Vec F S65536 .f32) :
    out0_A_5 c i a2 h2 a3 h3 a4 h4 a5 h5 a6 h6 a7 h7 a8 h8 a9 h9 hc x0 x1 x2 x3 x4 = k0_pay12 (k0_pay6 x3 x4) (k0_pay3 (F := F)) := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread,
    h8.read_unread, h9.read_unread, View.ld_unit_zero (S := S1x8x128) hz3, View.ld_unit_zero (S := S65536) hz1,
    View.ld_unit_zero (S := S3x65536) hz2]

/-- Past a half's first tile the likelihood accumulator ends at its contents plus the tile's likelihood number. -/
theorem out_B_6 (c : Dev nD) (i : grid0.Coords)
    (a2 : Memref sig .tc .vmem S3x65536 .f32) (h2 : a2.IsWhole) (a3 : Memref sig .tc .vmem S3x65536 .f32) (h3 : a3.IsWhole)
    (a4 : Memref sig .tc .vmem S3x65536 .f32) (h4 : a4.IsWhole) (a5 : Memref sig .tc .vmem S65536 .f32) (h5 : a5.IsWhole)
    (a6 : Memref sig .tc .vmem S65536 .f32) (h6 : a6.IsWhole) (a7 : Memref sig .tc .vmem S1x8x128 .f32) (h7 : a7.IsWhole)
    (a8 : Memref sig .tc .vmem S1x8x128 .f32) (h8 : a8.IsWhole) (a9 : Memref sig .tc .vmem S1x8x128 .f32) (h9 : a9.IsWhole)
    (hc : ¬cond0_0 i) (x0 x1 x2 : Vec F S3x65536 .f32) (x3 x4 : Vec F S65536 .f32) (xo5 xo6 xo7 : Vec F S1x8x128 .f32) :
    out0_B_6 c i a2 h2 a3 h3 a4 h4 a5 h5 a6 h6 a7 h7 a8 h8 a9 h9 hc x0 x1 x2 x3 x4 xo5 xo6 xo7 = k0_pay1 (k0_pay13 x4 x0 x2 (k0_pay7 x1) (k0_pay8 x4) (k0_pay9 x4 x0) xo6) := by
  unfold out0_B_6
  rw [View.read_writes_eq_canon _ _ _ (cover0_B_6 c i a2 h2 a3 h3 a4 h4 a5 h5 a6 h6 a7 h7 a8 h8 a9 h9 hc x0 x1 x2 x3 x4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, View.ld_unit_zero (S := S1x8x128) hz3, View.ld_unit_zero (S := S65536) hz1,
    View.ld_unit_zero (S := S3x65536) hz2]

/-- At a half's first tile the likelihood accumulator is reset to the zero block and ends at that plus the tile's likelihood number. -/
theorem out_A_6 (c : Dev nD) (i : grid0.Coords)
    (a2 : Memref sig .tc .vmem S3x65536 .f32) (h2 : a2.IsWhole) (a3 : Memref sig .tc .vmem S3x65536 .f32) (h3 : a3.IsWhole)
    (a4 : Memref sig .tc .vmem S3x65536 .f32) (h4 : a4.IsWhole) (a5 : Memref sig .tc .vmem S65536 .f32) (h5 : a5.IsWhole)
    (a6 : Memref sig .tc .vmem S65536 .f32) (h6 : a6.IsWhole) (a7 : Memref sig .tc .vmem S1x8x128 .f32) (h7 : a7.IsWhole)
    (a8 : Memref sig .tc .vmem S1x8x128 .f32) (h8 : a8.IsWhole) (a9 : Memref sig .tc .vmem S1x8x128 .f32) (h9 : a9.IsWhole)
    (hc : cond0_0 i) (x0 x1 x2 : Vec F S3x65536 .f32) (x3 x4 : Vec F S65536 .f32) :
    out0_A_6 c i a2 h2 a3 h3 a4 h4 a5 h5 a6 h6 a7 h7 a8 h8 a9 h9 hc x0 x1 x2 x3 x4 = k0_pay1 (k0_pay13 x4 x0 x2 (k0_pay7 x1) (k0_pay8 x4) (k0_pay9 x4 x0) (k0_pay4 (F := F))) := by
  unfold out0_A_6
  rw [View.read_writes_eq_canon _ _ _ (cover0_A_6 c i a2 h2 a3 h3 a4 h4 a5 h5 a6 h6 a7 h7 a8 h8 a9 h9 hc x0 x1 x2 x3 x4)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread,
    h8.read_unread, h9.read_unread, View.ld_unit_zero (S := S1x8x128) hz3, View.ld_unit_zero (S := S65536) hz1,
    View.ld_unit_zero (S := S3x65536) hz2]

/-- Past a half's first tile the count accumulator ends at its contents plus the tile's count. -/
theorem out_B_7 (c : Dev nD) (i : grid0.Coords)
    (a2 : Memref sig .tc .vmem S3x65536 .f32) (h2 : a2.IsWhole) (a3 : Memref sig .tc .vmem S3x65536 .f32) (h3 : a3.IsWhole)
    (a4 : Memref sig .tc .vmem S3x65536 .f32) (h4 : a4.IsWhole) (a5 : Memref sig .tc .vmem S65536 .f32) (h5 : a5.IsWhole)
    (a6 : Memref sig .tc .vmem S65536 .f32) (h6 : a6.IsWhole) (a7 : Memref sig .tc .vmem S1x8x128 .f32) (h7 : a7.IsWhole)
    (a8 : Memref sig .tc .vmem S1x8x128 .f32) (h8 : a8.IsWhole) (a9 : Memref sig .tc .vmem S1x8x128 .f32) (h9 : a9.IsWhole)
    (hc : ¬cond0_0 i) (x0 x1 x2 : Vec F S3x65536 .f32) (x3 x4 : Vec F S65536 .f32) (xo5 xo6 xo7 : Vec F S1x8x128 .f32) :
    out0_B_7 c i a2 h2 a3 h3 a4 h4 a5 h5 a6 h6 a7 h7 a8 h8 a9 h9 hc x0 x1 x2 x3 x4 xo5 xo6 xo7 = k0_pay2 (k0_pay11 x4) xo7 := by
  unfold out0_B_7
  rw [View.read_writes_eq_canon _ _ _ (cover0_B_7 c i a2 h2 a3 h3 a4 h4 a5 h5 a6 h6 a7 h7 a8 h8 a9 h9 hc x0 x1 x2 x3 x4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, View.ld_unit_zero (S := S1x8x128) hz3, View.ld_unit_zero (S := S65536) hz1,
    View.ld_unit_zero (S := S3x65536) hz2]

/-- At a half's first tile the count accumulator is reset to the zero block and ends at that plus the tile's count. -/
theorem out_A_7 (c : Dev nD) (i : grid0.Coords)
    (a2 : Memref sig .tc .vmem S3x65536 .f32) (h2 : a2.IsWhole) (a3 : Memref sig .tc .vmem S3x65536 .f32) (h3 : a3.IsWhole)
    (a4 : Memref sig .tc .vmem S3x65536 .f32) (h4 : a4.IsWhole) (a5 : Memref sig .tc .vmem S65536 .f32) (h5 : a5.IsWhole)
    (a6 : Memref sig .tc .vmem S65536 .f32) (h6 : a6.IsWhole) (a7 : Memref sig .tc .vmem S1x8x128 .f32) (h7 : a7.IsWhole)
    (a8 : Memref sig .tc .vmem S1x8x128 .f32) (h8 : a8.IsWhole) (a9 : Memref sig .tc .vmem S1x8x128 .f32) (h9 : a9.IsWhole)
    (hc : cond0_0 i) (x0 x1 x2 : Vec F S3x65536 .f32) (x3 x4 : Vec F S65536 .f32) :
    out0_A_7 c i a2 h2 a3 h3 a4 h4 a5 h5 a6 h6 a7 h7 a8 h8 a9 h9 hc x0 x1 x2 x3 x4 = k0_pay2 (k0_pay11 x4) (k0_pay5 (F := F)) := by
  unfold out0_A_7
  rw [View.read_writes_eq_canon _ _ _ (cover0_A_7 c i a2 h2 a3 h3 a4 h4 a5 h5 a6 h6 a7 h7 a8 h8 a9 h9 hc x0 x1 x2 x3 x4)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread,
    h8.read_unread, h9.read_unread, View.ld_unit_zero (S := S1x8x128) hz3, View.ld_unit_zero (S := S65536) hz1,
    View.ld_unit_zero (S := S3x65536) hz2]

end Cert.KernelIdeal.Pieces

end
-- ==== Proof.KernelTile.lean ====
/-
  One tile of the kernel, read at the extended reals.

  A grid point stages one tile of 65536 examples: the tile of p, the tile of the true values, and the three rows of each
  of mu, sigma and weight over the same 65536 columns. The body reduces the tile to three numbers — the sum of the
  purchase terms, the sum of the likelihood terms, the count of paid examples — each taken by viewing the 65536
  per-example values as ONE ROW, summing along it, and reading the one entry left; the three-component mixture is a sum
  down the three rows. It then adds each number to every entry of the matching [1, 8, 128] accumulator block.

  Here: that lane sum is the sum over the tile's 65536 positions; per position the body computes exactly the loss's terms
  (bce, comp summed over the components, ll, paid); and the accumulator update adds the tile's number to each entry.
-/
import proofs.«112673_j86955907875162_1_alg».proof.Proof.Gen.KernelIdeal.Skeleton
import proofs.«112673_j86955907875162_1_alg».proof.Proof.LossTerms
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-! ## The lane sum -/

/-- A vector of 65536 entries viewed as one row, summed along the row, the one entry read: the sum of its entries. -/
theorem lane_total (v : FVec Ideal S65536 .f32) :
    extractAt ![0, 0]
      (shapeCast S1x1 (multiReduction .add [1] S1 (shapeCast S1x65536 v shapeCasts_S65536_S1x65536) 0x00000000#32
        reduces_S1x65536_S1 (.inl rfl) rfl) shapeCasts_S1_S1x1) inpos_S1x1_p0_0
      = ∑ a : Fin 65536, v (ix1 a) := by
  unfold extractAt
  refine (shapeCast_apply _ shapeCasts_S1_S1x1 _ (ix1 (0 : Fin 1)) (by
    rw [Shape.rowMajor_val_one, Shape.rowMajor_val_two]; rfl)).trans ?_
  refine (Ideal.multiReduction_add_single _ 0x00000000#32 reduces_S1x65536_S1 (.inl rfl) rfl (ix1 (0 : Fin 1))).trans ?_
  refine Finset.sum_congr rfl fun a _ => ?_
  exact shapeCast_apply v shapeCasts_S65536_S1x65536 _ (ix1 a) (by
    rw [Shape.rowMajor_val_one, Shape.rowMajor_val_two]
    show a.val = 0 * 65536 + a.val
    omega)

/-! ## The purchase terms and the count of paid examples -/

/-- The tile's purchase number is the sum of the purchase terms of its 65536 examples. -/
theorem purchase_tile (v3 v4 : Vec Ideal S65536 .f32) :
    k0_pay6 (F := Ideal) v3 v4 = ∑ a : Fin 65536, Cert.Loss.bce (v3 (ix1 a)) (v4 (ix1 a)) := by
  unfold k0_pay6
  refine (lane_total _).trans (Finset.sum_congr rfl fun a _ => ?_)
  unfold Cert.Loss.bce Cert.Loss.paid Cert.Loss.paidBit
  rw [← Cert.Loss.signed_wide_bit]
  rfl

/-- The tile's count is the number of its examples with a positive true value. -/
theorem paid_tile (v4 : Vec Ideal S65536 .f32) :
    k0_pay11 (F := Ideal) v4 = ∑ a : Fin 65536, Cert.Loss.paid (v4 (ix1 a)) := by
  unfold k0_pay11 k0_pay10
  refine (lane_total _).trans (Finset.sum_congr rfl fun a _ => ?_)
  unfold Cert.Loss.paid Cert.Loss.paidBit
  rw [← Cert.Loss.signed_wide_bit]
  rfl

/-! ## The mixture's likelihood -/

/-- The upper bin edge minus the location, at component k of example a: the true value's row, shifted by 0.05 and
    repeated down the three rows, minus mu. -/
theorem upper_at (v4 : Vec Ideal S65536 .f32) (v26 : Vec Ideal S3x65536 .f32) (k : Fin 3) (a : Fin 65536) :
    k0_pay9 (F := Ideal) v4 v26 (ix2 k a) = v4 (ix1 a) + Ideal.ofBits .f32 0x3D4CCCCD#32 - v26 (ix2 k a) := by
  unfold k0_pay9 k0_pay8
  show broadcastTo S3x65536 _ broadcasts_S1x65536_S3x65536 (ix2 k a) - v26 (ix2 k a) = _
  rw [broadcastTo_1b_ab_apply]
  show shapeCast S1x65536 v4 shapeCasts_S65536_S1x65536 (ix2 (0 : Fin 1) a) + _ - _ = _
  rw [shapeCast_a_1a_apply]
  rfl

/-- The lower bin edge minus the location, likewise. -/
theorem lower_at (v4 : Vec Ideal S65536 .f32) (v26 : Vec Ideal S3x65536 .f32) (k : Fin 3) (a : Fin 65536) :
    subf (broadcastTo S3x65536 (subf (k0_pay8 (F := Ideal) v4) (broadcast S1x65536 (Scalar.ofBits .f32 0x3D4CCCCD#32)))
        broadcasts_S1x65536_S3x65536) v26 (ix2 k a)
      = v4 (ix1 a) - Ideal.ofBits .f32 0x3D4CCCCD#32 - v26 (ix2 k a) := by
  unfold k0_pay8
  show broadcastTo S3x65536 _ broadcasts_S1x65536_S3x65536 (ix2 k a) - v26 (ix2 k a) = _
  rw [broadcastTo_1b_ab_apply]
  show shapeCast S1x65536 v4 shapeCasts_S65536_S1x65536 (ix2 (0 : Fin 1) a) - _ - _ = _
  rw [shapeCast_a_1a_apply]
  rfl

/-- One weighted component's mass, at component k of example a. -/
theorem comp_at (v4 : Vec Ideal S65536 .f32) (v26 v27 v28 : Vec Ideal S3x65536 .f32) (k : Fin 3) (a : Fin 65536) :
    mulf v28 (maximumf (subf (logistic (mulf (k0_pay9 (F := Ideal) v4 v26) (k0_pay7 v27)))
          (logistic (mulf (subf (broadcastTo S3x65536 (subf (k0_pay8 v4) (broadcast S1x65536 (Scalar.ofBits .f32 0x3D4CCCCD#32)))
            broadcasts_S1x65536_S3x65536) v26) (k0_pay7 v27))))
          (broadcast S3x65536 (Scalar.ofBits .f32 0x322BCC77#32))) (ix2 k a)
      = Cert.Loss.comp (v26 (ix2 k a)) (v27 (ix2 k a)) (v28 (ix2 k a)) (v4 (ix1 a)) := by
  show v28 (ix2 k a) * max (Ideal.logistic (k0_pay9 (F := Ideal) v4 v26 (ix2 k a) * k0_pay7 (F := Ideal) v27 (ix2 k a))
    - Ideal.logistic (subf (broadcastTo S3x65536 (subf (k0_pay8 (F := Ideal) v4) (broadcast S1x65536 (Scalar.ofBits .f32 0x3D4CCCCD#32)))
        broadcasts_S1x65536_S3x65536) v26 (ix2 k a) * k0_pay7 (F := Ideal) v27 (ix2 k a))) _ = _
  rw [upper_at, lower_at]
  rfl

/-- The mixture's mass at example a: the weighted component masses summed down the three rows. -/
theorem mixture_at (v4 : Vec Ideal S65536 .f32) (v26 v27 v28 : Vec Ideal S3x65536 .f32) (a : Fin 65536) :
    multiReduction .add [0] S65536
        (mulf v28 (maximumf (subf (logistic (mulf (k0_pay9 (F := Ideal) v4 v26) (k0_pay7 v27)))
          (logistic (mulf (subf (broadcastTo S3x65536 (subf (k0_pay8 v4) (broadcast S1x65536 (Scalar.ofBits .f32 0x3D4CCCCD#32)))
            broadcasts_S1x65536_S3x65536) v26) (k0_pay7 v27))))
          (broadcast S3x65536 (Scalar.ofBits .f32 0x322BCC77#32))))
        0x00000000#32 reduces_S3x65536_S65536 (.inl rfl) rfl (ix1 a)
      = ∑ k : Fin 3, Cert.Loss.comp (v26 (ix2 k a)) (v27 (ix2 k a)) (v28 (ix2 k a)) (v4 (ix1 a)) := by
  refine (Ideal.multiReduction_add_single _ 0x00000000#32 reduces_S3x65536_S65536 (.inl rfl) rfl (ix1 a)).trans ?_
  refine Finset.sum_congr rfl fun k _ => ?_
  have hl : reduces_S3x65536_S65536.lift (ix1 a) k = ix2 k a :=
    funext fun d => Fin.ext (by match d with | ⟨0, _⟩ => rfl | ⟨1, _⟩ => rfl)
  exact (congrArg _ hl).trans (comp_at v4 v26 v27 v28 k a)

/-! ## The accumulator blocks -/

/-- Adding a number to every entry of a [1, 8, 128] block, as the body does it through the block's [8, 128] view. -/
theorem add_to_block (v : Vec Ideal S1x8x128 .f32) (s : Ideal .f32) (y : S1x8x128.Idx) :
    shapeCast S1x8x128 (addf (shapeCast S8x128 v shapeCasts_S1x8x128_S8x128) (broadcast S8x128 s))
      shapeCasts_S8x128_S1x8x128 y = v y + s := by
  obtain ⟨u, i, j, rfl⟩ : ∃ (u : Fin 1) (i : Fin 8) (j : Fin 128), y = ix3 u i j := ⟨y 0, y 1, y 2, eq_ix3 y⟩
  refine (shapeCast_ab_1ab_apply _ shapeCasts_S8x128_S1x8x128 u i j).trans ?_
  show shapeCast S8x128 v shapeCasts_S1x8x128_S8x128 (ix2 i j) + s = _
  rw [shapeCast_1ab_ab_apply]
  have hu : u = 0 := Subsingleton.elim _ _
  rw [hu]

/-- The block the first tile of a half resets an accumulator to: every entry 0. -/
theorem zero_block (y : S1x8x128.Idx) : k0_pay3 (F := Ideal) y = 0 := by
  obtain ⟨u, i, j, rfl⟩ : ∃ (u : Fin 1) (i : Fin 8) (j : Fin 128), y = ix3 u i j := ⟨y 0, y 1, y 2, eq_ix3 y⟩
  unfold k0_pay3
  refine (shapeCast_ab_1ab_apply _ shapeCasts_S8x128_S1x8x128 u i j).trans ?_
  exact Cert.Loss.word_zero

/-- The purchase accumulator's update: the tile's number added to every entry. -/
theorem purchase_step (s : Ideal .f32) (v : Vec Ideal S1x8x128 .f32) (y : S1x8x128.Idx) :
    k0_pay12 (F := Ideal) s v y = v y + s := by
  unfold k0_pay12
  exact add_to_block v s y

/-- The count accumulator's update, likewise. -/
theorem paid_step (s : Ideal .f32) (v : Vec Ideal S1x8x128 .f32) (y : S1x8x128.Idx) :
    k0_pay2 (F := Ideal) s v y = v y + s := by
  unfold k0_pay2
  exact add_to_block v s y

/-- A guarded logarithm of a shifted vector, read at one position. -/
theorem guarded_log_at (c : IVec S65536 1) (X : FVec Ideal S65536 .f32) (e z : Ideal .f32) (a : Fin 65536) :
    select c (log (addf X (broadcast S65536 e))) (broadcast S65536 z) (ix1 a)
      = Scalar.select (c (ix1 a)) (Ideal.log (X (ix1 a) + e)) z := rfl

/-- The likelihood accumulator's update: the sum over the tile of the likelihood terms, added to every entry. -/
theorem likelihood_step (v4 : Vec Ideal S65536 .f32) (v26 v27 v28 : Vec Ideal S3x65536 .f32) (v75 : Vec Ideal S1x8x128 .f32)
    (y : S1x8x128.Idx) :
    k0_pay1 (k0_pay13 (F := Ideal) v4 v26 v28 (k0_pay7 v27) (k0_pay8 v4) (k0_pay9 v4 v26) v75) y
      = v75 y + ∑ a : Fin 65536, Cert.Loss.ll
          (∑ k : Fin 3, Cert.Loss.comp (v26 (ix2 k a)) (v27 (ix2 k a)) (v28 (ix2 k a)) (v4 (ix1 a))) (v4 (ix1 a)) := by
  unfold k0_pay1 k0_pay13
  refine (add_to_block v75 _ y).trans ?_
  refine congrArg (v75 y + ·) ?_
  refine (lane_total _).trans (Finset.sum_congr rfl fun a _ => ?_)
  refine (guarded_log_at _ _ _ _ a).trans ?_
  rw [mixture_at v4 v26 v27 v28 a]
  rfl

end Cert.KernelIdeal.Tile

end
-- ==== Proof.KernelAcc.lean ====
/-
  The accumulators over the grid.

  The grid's 64 points run in order; point n works on tile n, and the 32 tiles n = 32 p … 32 p + 31 belong to half p.
  Each of the three accumulator blocks is reset at a half's first tile and carried over every later one, so after point
  n every entry of a block holds 0 plus the numbers of the tiles of n's half up to n: a running total that starts again
  at each half. That is proved by induction on the point from the two cases' contents; after a half's last tile the
  total is the sum over the half's 32 tiles.
-/
import proofs.«112673_j86955907875162_1_alg».proof.Proof.KernelPieces
import proofs.«112673_j86955907875162_1_alg».proof.Proof.KernelTile

set_option maxRecDepth 16384

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx

/-! ## A running total that starts again every 32 steps -/

/-- 0 plus the numbers of the steps of n's group of 32 up to and including n. -/
def running (a : ℕ → EReal) (n : ℕ) : EReal := 0 + ∑ j ∈ Finset.range (n % 32 + 1), a (n / 32 * 32 + j)

/-- At a group's first step the total is 0 plus that step's number. -/
theorem running_first (a : ℕ → EReal) (n : ℕ) (h : n % 32 = 0) : 0 + a n = running a n := by
  unfold running
  have h1 : n / 32 * 32 + 0 = n := by omega
  rw [h, Finset.sum_range_one, h1]

/-- At a later step it is the total one step before plus the step's number. -/
theorem running_next (a : ℕ → EReal) (n : ℕ) (h : ¬n % 32 = 0) : running a (n - 1) + a n = running a n := by
  unfold running
  have h1 : (n - 1) / 32 = n / 32 := by omega
  have h2 : (n - 1) % 32 + 1 = n % 32 := by omega
  have h3 : n / 32 * 32 + n % 32 = n := by omega
  rw [h1, h2, Finset.sum_range_succ, h3, add_assoc]

/-- After a group's last step it is 0 plus the sum over the group. -/
theorem running_last (a : ℕ → EReal) (p : ℕ) :
    running a (32 * p + 31) = 0 + ∑ j : Fin 32, a (32 * p + j.val) := by
  unfold running
  have h1 : (32 * p + 31) % 32 + 1 = 32 := by omega
  have h2 : (32 * p + 31) / 32 * 32 = 32 * p := by omega
  rw [h1, h2, Finset.sum_range]

/-! ## The tiles' numbers -/

variable (m : (ℓ : Loc nD τ sig) → Buf (Elt Ideal) ℓ)

/-- The sum of the likelihood terms over a tile: its true values and its three rows of mu, sigma and weight. -/
def llSum (v4 : Vec Ideal S65536 .f32) (v26 v27 v28 : Vec Ideal S3x65536 .f32) : EReal :=
  ∑ a : Fin 65536, Cert.Loss.ll
    (∑ k : Fin 3, Cert.Loss.comp (v26 (ix2 k a)) (v27 (ix2 k a)) (v28 (ix2 k a)) (v4 (ix1 a))) (v4 (ix1 a))

/-- Tile t's purchase number (0 past the grid). -/
def purchaseNum (c : Dev nD) (t : ℕ) : EReal :=
  if h : t < cfg0.N then k0_pay6 (F := Ideal) (iblk m c 3 ⟨t, h⟩) (iblk m c 4 ⟨t, h⟩) else 0
/-- Tile t's likelihood number. -/
def likelihoodNum (c : Dev nD) (t : ℕ) : EReal :=
  if h : t < cfg0.N then llSum (iblk m c 4 ⟨t, h⟩) (iblk m c 0 ⟨t, h⟩) (iblk m c 1 ⟨t, h⟩) (iblk m c 2 ⟨t, h⟩) else 0
/-- Tile t's count of paid examples. -/
def paidNum (c : Dev nD) (t : ℕ) : EReal :=
  if h : t < cfg0.N then k0_pay11 (F := Ideal) (iblk m c 4 ⟨t, h⟩) else 0

/-! ## One point's effect on each accumulator -/

theorem purchase_reset (c : Dev nD) (t : Fin cfg0.N) (h0 : t.val % 32 = 0) (y : S1x8x128.Idx) :
    (outsAt0 m c t.val t.isLt).1 y = 0 + purchaseNum m c t.val := by
  rw [outsAt0_A m c t h0]
  dsimp only
  refine (congrFun (Cert.KernelIdeal.Pieces.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)) y).trans ?_
  refine (Cert.KernelIdeal.Tile.purchase_step _ _ y).trans ?_
  rw [Cert.KernelIdeal.Tile.zero_block]
  unfold purchaseNum
  rw [dif_pos t.isLt]

theorem purchase_carry (c : Dev nD) (t : Fin cfg0.N) (h0 : ¬t.val % 32 = 0) (y : S1x8x128.Idx) :
    (outsAt0 m c t.val t.isLt).1 y = (outsAt0 m c (t.val - 1) (Nat.lt_of_le_of_lt (Nat.sub_le _ _) t.isLt)).1 y + purchaseNum m c t.val := by
  rw [outsAt0_B m c t h0]
  dsimp only
  refine (congrFun (Cert.KernelIdeal.Pieces.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) y).trans ?_
  refine (Cert.KernelIdeal.Tile.purchase_step _ _ y).trans ?_
  unfold purchaseNum
  rw [dif_pos t.isLt]

theorem likelihood_reset (c : Dev nD) (t : Fin cfg0.N) (h0 : t.val % 32 = 0) (y : S1x8x128.Idx) :
    (outsAt0 m c t.val t.isLt).2.1 y = 0 + likelihoodNum m c t.val := by
  rw [outsAt0_A m c t h0]
  dsimp only
  refine (congrFun (Cert.KernelIdeal.Pieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)) y).trans ?_
  refine (Cert.KernelIdeal.Tile.likelihood_step (iblk m c 4 t) (iblk m c 0 t) (iblk m c 1 t) (iblk m c 2 t) (k0_pay4 (F := Ideal)) y).trans ?_
  rw [show k0_pay4 (F := Ideal) y = 0 from Cert.KernelIdeal.Tile.zero_block y]
  unfold likelihoodNum
  rw [dif_pos t.isLt]
  rfl

theorem likelihood_carry (c : Dev nD) (t : Fin cfg0.N) (h0 : ¬t.val % 32 = 0) (y : S1x8x128.Idx) :
    (outsAt0 m c t.val t.isLt).2.1 y = (outsAt0 m c (t.val - 1) (Nat.lt_of_le_of_lt (Nat.sub_le _ _) t.isLt)).2.1 y + likelihoodNum m c t.val := by
  rw [outsAt0_B m c t h0]
  dsimp only
  refine (congrFun (Cert.KernelIdeal.Pieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) y).trans ?_
  refine (Cert.KernelIdeal.Tile.likelihood_step (iblk m c 4 t) (iblk m c 0 t) (iblk m c 1 t) (iblk m c 2 t) (outsAt0 m c (t.val - 1) (Nat.lt_of_le_of_lt (Nat.sub_le _ _) t.isLt)).2.1 y).trans ?_
  unfold likelihoodNum
  rw [dif_pos t.isLt]
  rfl

theorem paid_reset (c : Dev nD) (t : Fin cfg0.N) (h0 : t.val % 32 = 0) (y : S1x8x128.Idx) :
    (outsAt0 m c t.val t.isLt).2.2 y = 0 + paidNum m c t.val := by
  rw [outsAt0_A m c t h0]
  dsimp only
  refine (congrFun (Cert.KernelIdeal.Pieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)) y).trans ?_
  refine (Cert.KernelIdeal.Tile.paid_step _ _ y).trans ?_
  rw [show k0_pay5 (F := Ideal) y = 0 from Cert.KernelIdeal.Tile.zero_block y]
  unfold paidNum
  rw [dif_pos t.isLt]

theorem paid_carry (c : Dev nD) (t : Fin cfg0.N) (h0 : ¬t.val % 32 = 0) (y : S1x8x128.Idx) :
    (outsAt0 m c t.val t.isLt).2.2 y = (outsAt0 m c (t.val - 1) (Nat.lt_of_le_of_lt (Nat.sub_le _ _) t.isLt)).2.2 y + paidNum m c t.val := by
  rw [outsAt0_B m c t h0]
  dsimp only
  refine (congrFun (Cert.KernelIdeal.Pieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) y).trans ?_
  refine (Cert.KernelIdeal.Tile.paid_step _ _ y).trans ?_
  unfold paidNum
  rw [dif_pos t.isLt]

/-! ## The invariant -/

/-- After point n every entry of each accumulator block is the running total of its tile numbers. -/
theorem outsAt_eq (c : Dev nD) (n : ℕ) : ∀ (h : n < cfg0.N) (y : S1x8x128.Idx),
    (outsAt0 m c n h).1 y = running (purchaseNum m c) n
      ∧ (outsAt0 m c n h).2.1 y = running (likelihoodNum m c) n
      ∧ (outsAt0 m c n h).2.2 y = running (paidNum m c) n := by
  induction n using Nat.strong_induction_on with
  | _ n ih =>
    intro h y
    by_cases h0 : n % 32 = 0
    · exact ⟨(purchase_reset m c ⟨n, h⟩ h0 y).trans (running_first _ n h0),
        (likelihood_reset m c ⟨n, h⟩ h0 y).trans (running_first _ n h0),
        (paid_reset m c ⟨n, h⟩ h0 y).trans (running_first _ n h0)⟩
    · have hlt : n - 1 < n := by omega
      have ih' := ih (n - 1) hlt (Nat.lt_of_le_of_lt (Nat.sub_le _ _) h) y
      refine ⟨(purchase_carry m c ⟨n, h⟩ h0 y).trans ?_, (likelihood_carry m c ⟨n, h⟩ h0 y).trans ?_,
        (paid_carry m c ⟨n, h⟩ h0 y).trans ?_⟩
      · rw [ih'.1]; exact running_next _ n h0
      · rw [ih'.2.1]; exact running_next _ n h0
      · rw [ih'.2.2]; exact running_next _ n h0

end Cert.KernelIdeal.Acc

end
-- ==== Proof.KernelArrays.lean ====
/-
  The three accumulator arrays after the run.

  Each accumulator is a [2, 8, 128] array of two blocks, one per half of the grid; a half's block is written back once,
  after the half's last point (points 31 and 63). What is written back is the block's running total there, so entry
  (p, ·, ·) of the array ends at 0 plus the sum of the numbers of half p's 32 tiles. The two written blocks cover the
  array.
-/
import proofs.«112673_j86955907875162_1_alg».proof.Proof.KernelAcc
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The array of a half's final running totals: entry (p, ·, ·) is the total after tile 32 p + 31. -/
def accArray (num : ℕ → EReal) : S2x8x128.Idx → EReal := fun i => Cert.KernelIdeal.Acc.running num (32 * (i 0).val + 31)

/-! ## The purchase accumulator's array -/

/-- Its block at point t is block (t / 32, 0, 0). -/
theorem index_out5 : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)

/-- What a half's last point writes back is that half's block of the array of running totals. -/
theorem flushed5_eq (c : Dev nD) (t : Fin cfg0.N) (hf : (cfg0.win 5).flush t = true) :
    (dats m 0 c).flushed 5 t = ((cfg0.win 5).blk t).view.read (Elt Ideal) (accArray (Cert.KernelIdeal.Acc.purchaseNum m c)) := by
  show (cfg0.win 5).cut (grid0.coords t) ((dats m 0 c).after 5 t) = _
  rw [after0_5]
  have h31 : t.val % 32 = 31 := (flush0_5 t).mp hf
  funext y
  rw [View.read_apply]
  show (outsAt0 m c t.val t.isLt).1 y = Cert.KernelIdeal.Acc.running _ (32 * ((((cfg0.win 5).blk t).view.emb y) 0).val + 31)
  rw [(Cert.KernelIdeal.Acc.outsAt_eq m c t.val t.isLt y).1]
  congr 1
  show t.val = 32 * (win0_5.index t 0 * 1 + 1 * (y 0).val) + 31
  have hy : (y 0).val < 1 := (y 0).isLt
  rw [(index_out5 t).1]
  omega

/-- An index of the array is in point t's block iff each coordinate is in the block's range on its axis. -/
theorem mem_blk5 (t : Fin cfg0.N) (i : S2x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v0_0).slice (win0_5.rect t)).set ↔ _
  rw [View.set_slice_whole, Rect.mem_set_unit]
  exact Iff.rfl

/-- Every index of the array lies in the block written back after its half's last point. -/
theorem cover5 (i : S2x8x128.Idx) :
    ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by rw [hN]; omega
  refine ⟨⟨32 * (i 0).val + 31, hlt⟩, (flush0_5 _).mpr (by show (32 * (i 0).val + 31) % 32 = 31; omega), ?_⟩
  rw [mem_blk5]
  obtain ⟨e0, e1, e2⟩ := index_out5 ⟨32 * (i 0).val + 31, hlt⟩
  have e0' : win0_5.index ⟨32 * (i 0).val + 31, hlt⟩ 0 = (i 0).val := by rw [e0]; show (32 * (i 0).val + 31) / 32 = (i 0).val; omega
  intro a
  match a with
  | ⟨0, _⟩ =>
    show win0_5.index ⟨32 * (i 0).val + 31, hlt⟩ 0 * 1 ≤ (i 0).val ∧ (i 0).val < win0_5.index ⟨32 * (i 0).val + 31, hlt⟩ 0 * 1 + 1
    rw [e0']; omega
  | ⟨1, _⟩ =>
    show win0_5.index ⟨32 * (i 0).val + 31, hlt⟩ 1 * 8 ≤ (i 1).val ∧ (i 1).val < win0_5.index ⟨32 * (i 0).val + 31, hlt⟩ 1 * 8 + 8
    rw [e1]; omega
  | ⟨2, _⟩ =>
    show win0_5.index ⟨32 * (i 0).val + 31, hlt⟩ 2 * 128 ≤ (i 2).val ∧ (i 2).val < win0_5.index ⟨32 * (i 0).val + 31, hlt⟩ 2 * 128 + 128
    rw [e2]; omega

/-- The array after the run: entry (p, ·, ·) is half p's running total after its last tile. -/
theorem final5 (c : Dev nD) : (dats m 0 c).arrAt 5 cfg0.N = accArray (Cert.KernelIdeal.Acc.purchaseNum m c) :=
  (dats m 0 c).arrAt_eq_of_cover 5 (accArray (Cert.KernelIdeal.Acc.purchaseNum m c)) (flushed5_eq m c) cover5

/-! ## The likelihood accumulator's array -/

/-- Its block at point t is block (t / 32, 0, 0). -/
theorem index_out6 : ∀ t : Fin cfg0.N, win0_6.index t 0 = t.val / 32 ∧ win0_6.index t 1 = 0 ∧ win0_6.index t 2 = 0 :=
  (by decide +kernel : ∀ t : Fin grid0.N, win0_6.index t 0 = t.val / 32 ∧ win0_6.index t 1 = 0 ∧ win0_6.index t 2 = 0)

/-- What a half's last point writes back is that half's block of the array of running totals. -/
theorem flushed6_eq (c : Dev nD) (t : Fin cfg0.N) (hf : (cfg0.win 6).flush t = true) :
    (dats m 0 c).flushed 6 t = ((cfg0.win 6).blk t).view.read (Elt Ideal) (accArray (Cert.KernelIdeal.Acc.likelihoodNum m c)) := by
  show (cfg0.win 6).cut (grid0.coords t) ((dats m 0 c).after 6 t) = _
  rw [after0_6]
  have h31 : t.val % 32 = 31 := (flush0_6 t).mp hf
  funext y
  rw [View.read_apply]
  show (outsAt0 m c t.val t.isLt).2.1 y = Cert.KernelIdeal.Acc.running _ (32 * ((((cfg0.win 6).blk t).view.emb y) 0).val + 31)
  rw [(Cert.KernelIdeal.Acc.outsAt_eq m c t.val t.isLt y).2.1]
  congr 1
  show t.val = 32 * (win0_6.index t 0 * 1 + 1 * (y 0).val) + 31
  have hy : (y 0).val < 1 := (y 0).isLt
  rw [(index_out6 t).1]
  omega

/-- An index of the array is in point t's block iff each coordinate is in the block's range on its axis. -/
theorem mem_blk6 (t : Fin cfg0.N) (i : S2x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v0_1).slice (win0_6.rect t)).set ↔ _
  rw [View.set_slice_whole, Rect.mem_set_unit]
  exact Iff.rfl

/-- Every index of the array lies in the block written back after its half's last point. -/
theorem cover6 (i : S2x8x128.Idx) :
    ∃ t : Fin cfg0.N, (cfg0.win 6).flush t = true ∧ i ∈ ((cfg0.win 6).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by rw [hN]; omega
  refine ⟨⟨32 * (i 0).val + 31, hlt⟩, (flush0_6 _).mpr (by show (32 * (i 0).val + 31) % 32 = 31; omega), ?_⟩
  rw [mem_blk6]
  obtain ⟨e0, e1, e2⟩ := index_out6 ⟨32 * (i 0).val + 31, hlt⟩
  have e0' : win0_6.index ⟨32 * (i 0).val + 31, hlt⟩ 0 = (i 0).val := by rw [e0]; show (32 * (i 0).val + 31) / 32 = (i 0).val; omega
  intro a
  match a with
  | ⟨0, _⟩ =>
    show win0_6.index ⟨32 * (i 0).val + 31, hlt⟩ 0 * 1 ≤ (i 0).val ∧ (i 0).val < win0_6.index ⟨32 * (i 0).val + 31, hlt⟩ 0 * 1 + 1
    rw [e0']; omega
  | ⟨1, _⟩ =>
    show win0_6.index ⟨32 * (i 0).val + 31, hlt⟩ 1 * 8 ≤ (i 1).val ∧ (i 1).val < win0_6.index ⟨32 * (i 0).val + 31, hlt⟩ 1 * 8 + 8
    rw [e1]; omega
  | ⟨2, _⟩ =>
    show win0_6.index ⟨32 * (i 0).val + 31, hlt⟩ 2 * 128 ≤ (i 2).val ∧ (i 2).val < win0_6.index ⟨32 * (i 0).val + 31, hlt⟩ 2 * 128 + 128
    rw [e2]; omega

/-- The array after the run: entry (p, ·, ·) is half p's running total after its last tile. -/
theorem final6 (c : Dev nD) : (dats m 0 c).arrAt 6 cfg0.N = accArray (Cert.KernelIdeal.Acc.likelihoodNum m c) :=
  (dats m 0 c).arrAt_eq_of_cover 6 (accArray (Cert.KernelIdeal.Acc.likelihoodNum m c)) (flushed6_eq m c) cover6

/-! ## The count accumulator's array -/

/-- Its block at point t is block (t / 32, 0, 0). -/
theorem index_out7 : ∀ t : Fin cfg0.N, win0_7.index t 0 = t.val / 32 ∧ win0_7.index t 1 = 0 ∧ win0_7.index t 2 = 0 :=
  (by decide +kernel : ∀ t : Fin grid0.N, win0_7.index t 0 = t.val / 32 ∧ win0_7.index t 1 = 0 ∧ win0_7.index t 2 = 0)

/-- What a half's last point writes back is that half's block of the array of running totals. -/
theorem flushed7_eq (c : Dev nD) (t : Fin cfg0.N) (hf : (cfg0.win 7).flush t = true) :
    (dats m 0 c).flushed 7 t = ((cfg0.win 7).blk t).view.read (Elt Ideal) (accArray (Cert.KernelIdeal.Acc.paidNum m c)) := by
  show (cfg0.win 7).cut (grid0.coords t) ((dats m 0 c).after 7 t) = _
  rw [after0_7]
  have h31 : t.val % 32 = 31 := (flush0_7 t).mp hf
  funext y
  rw [View.read_apply]
  show (outsAt0 m c t.val t.isLt).2.2 y = Cert.KernelIdeal.Acc.running _ (32 * ((((cfg0.win 7).blk t).view.emb y) 0).val + 31)
  rw [(Cert.KernelIdeal.Acc.outsAt_eq m c t.val t.isLt y).2.2]
  congr 1
  show t.val = 32 * (win0_7.index t 0 * 1 + 1 * (y 0).val) + 31
  have hy : (y 0).val < 1 := (y 0).isLt
  rw [(index_out7 t).1]
  omega

/-- An index of the array is in point t's block iff each coordinate is in the block's range on its axis. -/
theorem mem_blk7 (t : Fin cfg0.N) (i : S2x8x128.Idx) :
    i ∈ ((cfg0.win 7).blk t).view.set ↔ ∀ a : Fin 3, win0_7.index t a * S1x8x128.size a ≤ (i a).val
      ∧ (i a).val < win0_7.index t a * S1x8x128.size a + S1x8x128.size a := by
  show i ∈ ((View.whole main_v0_2).slice (win0_7.rect t)).set ↔ _
  rw [View.set_slice_whole, Rect.mem_set_unit]
  exact Iff.rfl

/-- Every index of the array lies in the block written back after its half's last point. -/
theorem cover7 (i : S2x8x128.Idx) :
    ∃ t : Fin cfg0.N, (cfg0.win 7).flush t = true ∧ i ∈ ((cfg0.win 7).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by rw [hN]; omega
  refine ⟨⟨32 * (i 0).val + 31, hlt⟩, (flush0_7 _).mpr (by show (32 * (i 0).val + 31) % 32 = 31; omega), ?_⟩
  rw [mem_blk7]
  obtain ⟨e0, e1, e2⟩ := index_out7 ⟨32 * (i 0).val + 31, hlt⟩
  have e0' : win0_7.index ⟨32 * (i 0).val + 31, hlt⟩ 0 = (i 0).val := by rw [e0]; show (32 * (i 0).val + 31) / 32 = (i 0).val; omega
  intro a
  match a with
  | ⟨0, _⟩ =>
    show win0_7.index ⟨32 * (i 0).val + 31, hlt⟩ 0 * 1 ≤ (i 0).val ∧ (i 0).val < win0_7.index ⟨32 * (i 0).val + 31, hlt⟩ 0 * 1 + 1
    rw [e0']; omega
  | ⟨1, _⟩ =>
    show win0_7.index ⟨32 * (i 0).val + 31, hlt⟩ 1 * 8 ≤ (i 1).val ∧ (i 1).val < win0_7.index ⟨32 * (i 0).val + 31, hlt⟩ 1 * 8 + 8
    rw [e1]; omega
  | ⟨2, _⟩ =>
    show win0_7.index ⟨32 * (i 0).val + 31, hlt⟩ 2 * 128 ≤ (i 2).val ∧ (i 2).val < win0_7.index ⟨32 * (i 0).val + 31, hlt⟩ 2 * 128 + 128
    rw [e2]; omega

/-- The array after the run: entry (p, ·, ·) is half p's running total after its last tile. -/
theorem final7 (c : Dev nD) : (dats m 0 c).arrAt 7 cfg0.N = accArray (Cert.KernelIdeal.Acc.paidNum m c) :=
  (dats m 0 c).arrAt_eq_of_cover 7 (accArray (Cert.KernelIdeal.Acc.paidNum m c)) (flushed7_eq m c) cover7

end Cert.KernelIdeal.Arrays

end
-- ==== Proof.KernelBlocks.lean ====
/-
  The input blocks, read at a position.

  Point t stages tile t of each input: for the two vectors (p and the true values) the 65536 entries from position
  65536 t on; for the three-row arrays (mu, sigma, weight) the same 65536 columns of all three rows. So position w of a
  vector's block is entry 65536 t + w of the vector, and entry (k, w) of a three-row block is entry (k, 65536 t + w) of
  the array. The index maps are decided once over the 64 grid points.
-/
import proofs.«112673_j86955907875162_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- A vector's block index at point t is t. -/
theorem index_p : ∀ t : Fin cfg0.N, win0_3.index t 0 = t.val :=
  (by decide +kernel : ∀ t : Fin grid0.N, win0_3.index t 0 = t.val)
theorem index_tv : ∀ t : Fin cfg0.N, win0_4.index t 0 = t.val :=
  (by decide +kernel : ∀ t : Fin grid0.N, win0_4.index t 0 = t.val)
/-- A three-row array's block index at point t is (0, t). -/
theorem index_mu : ∀ t : Fin cfg0.N, win0_0.index t 0 = 0 ∧ win0_0.index t 1 = t.val :=
  (by decide +kernel : ∀ t : Fin grid0.N, win0_0.index t 0 = 0 ∧ win0_0.index t 1 = t.val)
theorem index_sigma : ∀ t : Fin cfg0.N, win0_1.index t 0 = 0 ∧ win0_1.index t 1 = t.val :=
  (by decide +kernel : ∀ t : Fin grid0.N, win0_1.index t 0 = 0 ∧ win0_1.index t 1 = t.val)
theorem index_weight : ∀ t : Fin cfg0.N, win0_2.index t 0 = 0 ∧ win0_2.index t 1 = t.val :=
  (by decide +kernel : ∀ t : Fin grid0.N, win0_2.index t 0 = 0 ∧ win0_2.index t 1 = t.val)

/-- Position w of the block of p at point t is entry 65536 t + w of p. -/
theorem p_block (c : Dev nD) (t : Fin cfg0.N) (w : Fin 65536) (g : Fin 4194304) (hg : g.val = 65536 * t.val + w.val) :
    (iblk m c 3 t : Vec F S65536 .f32) (ix1 w) = m ((c : Thread nD τ).loc main_arg0) (ix1 g) := by
  unfold iblk
  rw [View.read_apply]
  show V m c main_arg0 _ = m (c.tc.loc main_arg0) _
  unfold V
  congr 1
  funext a
  apply Fin.ext
  match a with
  | ⟨0, _⟩ => show win0_3.index t 0 * 65536 + 1 * w.val = g.val; rw [index_p t, hg]; omega

/-- Position w of the block of the true values at point t is entry 65536 t + w. -/
theorem tv_block (c : Dev nD) (t : Fin cfg0.N) (w : Fin 65536) (g : Fin 4194304) (hg : g.val = 65536 * t.val + w.val) :
    (iblk m c 4 t : Vec F S65536 .f32) (ix1 w) = m ((c : Thread nD τ).loc main_arg4) (ix1 g) := by
  unfold iblk
  rw [View.read_apply]
  show V m c main_arg4 _ = m (c.tc.loc main_arg4) _
  unfold V
  congr 1
  funext a
  apply Fin.ext
  match a with
  | ⟨0, _⟩ => show win0_4.index t 0 * 65536 + 1 * w.val = g.val; rw [index_tv t, hg]; omega

/-- Entry (k, w) of the block of mu at point t is entry (k, 65536 t + w) of mu. -/
theorem mu_block (c : Dev nD) (t : Fin cfg0.N) (k : Fin 3) (w : Fin 65536) (g : Fin 4194304) (hg : g.val = 65536 * t.val + w.val) :
    (iblk m c 0 t : Vec F S3x65536 .f32) (ix2 k w) = m ((c : Thread nD τ).loc main_arg1) (ix2 k g) := by
  unfold iblk
  rw [View.read_apply]
  show V m c main_arg1 _ = m (c.tc.loc main_arg1) _
  unfold V
  congr 1
  funext a
  apply Fin.ext
  match a with
  | ⟨0, _⟩ => show win0_0.index t 0 * 3 + 1 * k.val = k.val; rw [(index_mu t).1]; omega
  | ⟨1, _⟩ => show win0_0.index t 1 * 65536 + 1 * w.val = g.val; rw [(index_mu t).2, hg]; omega

/-- Entry (k, w) of the block of sigma, likewise. -/
theorem sigma_block (c : Dev nD) (t : Fin cfg0.N) (k : Fin 3) (w : Fin 65536) (g : Fin 4194304) (hg : g.val = 65536 * t.val + w.val) :
    (iblk m c 1 t : Vec F S3x65536 .f32) (ix2 k w) = m ((c : Thread nD τ).loc main_arg2) (ix2 k g) := by
  unfold iblk
  rw [View.read_apply]
  show V m c main_arg2 _ = m (c.tc.loc main_arg2) _
  unfold V
  congr 1
  funext a
  apply Fin.ext
  match a with
  | ⟨0, _⟩ => show win0_1.index t 0 * 3 + 1 * k.val = k.val; rw [(index_sigma t).1]; omega
  | ⟨1, _⟩ => show win0_1.index t 1 * 65536 + 1 * w.val = g.val; rw [(index_sigma t).2, hg]; omega

/-- Entry (k, w) of the block of the weights, likewise. -/
theorem weight_block (c : Dev nD) (t : Fin cfg0.N) (k : Fin 3) (w : Fin 65536) (g : Fin 4194304) (hg : g.val = 65536 * t.val + w.val) :
    (iblk m c 2 t : Vec F S3x65536 .f32) (ix2 k w) = m ((c : Thread nD τ).loc main_arg3) (ix2 k g) := by
  unfold iblk
  rw [View.read_apply]
  show V m c main_arg3 _ = m (c.tc.loc main_arg3) _
  unfold V
  congr 1
  funext a
  apply Fin.ext
  match a with
  | ⟨0, _⟩ => show win0_2.index t 0 * 3 + 1 * k.val = k.val; rw [(index_weight t).1]; omega
  | ⟨1, _⟩ => show win0_2.index t 1 * 65536 + 1 * w.val = g.val; rw [(index_weight t).2, hg]; omega

end Cert.KernelIdeal.Blocks

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.KernelSums.lean ====
/-
  The tiles' numbers add up to the sums over all examples.

  Tile t holds the examples 65536 t … 65536 t + 65535, and half p the tiles 32 p … 32 p + 31. A tile's number is the sum
  of its examples' terms read off the argument arrays at those positions; summing over a half's tiles and then over the
  two halves is the sum over all 4194304 examples, regrouped.
-/
import proofs.«112673_j86955907875162_1_alg».proof.Proof.KernelAcc
import proofs.«112673_j86955907875162_1_alg».proof.Proof.KernelBlocks
import proofs.«112673_j86955907875162_1_alg».proof.Proof.LibTileSum

set_option maxRecDepth 16384

noncomputable section

open scoped BigOperators

namespace Cert.KernelIdeal.Sums

open Cert.KernelIdeal Cert.KernelIdeal.Gen Idealize.ShloMosaic Idealize.ShloMosaic.TcCoe Idealize.SL.Sem
open Idealize.ShloMosaic.ValueIdx Idealize.ShloMosaic.TileSum

theorem h_tiles : 64 * 65536 = 4194304 := by norm_num
theorem h_halves : 2 * 32 = 64 := by norm_num

/-- Numbers per tile that are each the sum of a per-example term over the tile, summed half by half from 0 and then
    over the two halves, give the sum of the term over all examples. -/
theorem total_of_tiles (num : ℕ → EReal) (g : Fin 4194304 → EReal)
    (h : ∀ t : Fin 64, num t.val = ∑ w : Fin 65536, g (pos h_tiles t w)) :
    ∑ p : Fin 2, (0 + ∑ j : Fin 32, num (32 * p.val + j.val)) = ∑ a, g a := by
  rw [sum_tiles h_tiles g, sum_tiles h_halves (fun t : Fin 64 => ∑ w : Fin 65536, g (pos h_tiles t w))]
  refine Finset.sum_congr rfl fun p _ => ?_
  rw [zero_add]
  exact Finset.sum_congr rfl fun j _ => h (pos h_halves p j)

variable (m : (ℓ : Loc nD τ sig) → Buf (Elt Ideal) ℓ)

/-- Tile t's purchase number, over the argument arrays. -/
theorem purchaseNum_eq (c : Dev nD) (t : Fin 64) :
    Cert.KernelIdeal.Acc.purchaseNum m c t.val = ∑ w : Fin 65536,
      Cert.Loss.bce (m ((c : Thread nD τ).loc main_arg0) (ix1 (pos h_tiles t w)))
        (m ((c : Thread nD τ).loc main_arg4) (ix1 (pos h_tiles t w))) := by
  have ht : t.val < cfg0.N := lt_of_lt_of_eq t.isLt N_0.symm
  unfold Cert.KernelIdeal.Acc.purchaseNum
  rw [dif_pos ht]
  refine (Cert.KernelIdeal.Tile.purchase_tile (iblk m c 3 ⟨t.val, ht⟩) (iblk m c 4 ⟨t.val, ht⟩)).trans ?_
  refine Finset.sum_congr rfl fun w _ => ?_
  exact congrArg₂ Cert.Loss.bce (Cert.KernelIdeal.Blocks.p_block m c ⟨t.val, ht⟩ w (pos h_tiles t w) rfl)
    (Cert.KernelIdeal.Blocks.tv_block m c ⟨t.val, ht⟩ w (pos h_tiles t w) rfl)

/-- Tile t's count of paid examples, over the argument arrays. -/
theorem paidNum_eq (c : Dev nD) (t : Fin 64) :
    Cert.KernelIdeal.Acc.paidNum m c t.val = ∑ w : Fin 65536,
      Cert.Loss.paid (m ((c : Thread nD τ).loc main_arg4) (ix1 (pos h_tiles t w))) := by
  have ht : t.val < cfg0.N := lt_of_lt_of_eq t.isLt N_0.symm
  unfold Cert.KernelIdeal.Acc.paidNum
  rw [dif_pos ht]
  refine (Cert.KernelIdeal.Tile.paid_tile (iblk m c 4 ⟨t.val, ht⟩)).trans ?_
  refine Finset.sum_congr rfl fun w _ => ?_
  exact congrArg Cert.Loss.paid (Cert.KernelIdeal.Blocks.tv_block m c ⟨t.val, ht⟩ w (pos h_tiles t w) rfl)

/-- Tile t's likelihood number, over the argument arrays. -/
theorem likelihoodNum_eq (c : Dev nD) (t : Fin 64) :
    Cert.KernelIdeal.Acc.likelihoodNum m c t.val = ∑ w : Fin 65536, Cert.Loss.ll
      (∑ k : Fin 3, Cert.Loss.comp (m ((c : Thread nD τ).loc main_arg1) (ix2 k (pos h_tiles t w)))
        (m ((c : Thread nD τ).loc main_arg2) (ix2 k (pos h_tiles t w)))
        (m ((c : Thread nD τ).loc main_arg3) (ix2 k (pos h_tiles t w)))
        (m ((c : Thread nD τ).loc main_arg4) (ix1 (pos h_tiles t w))))
      (m ((c : Thread nD τ).loc main_arg4) (ix1 (pos h_tiles t w))) := by
  have ht : t.val < cfg0.N := lt_of_lt_of_eq t.isLt N_0.symm
  unfold Cert.KernelIdeal.Acc.likelihoodNum
  rw [dif_pos ht]
  unfold Cert.KernelIdeal.Acc.llSum
  refine Finset.sum_congr rfl fun w _ => ?_
  have e4 := Cert.KernelIdeal.Blocks.tv_block m c ⟨t.val, ht⟩ w (pos h_tiles t w) rfl
  refine congrArg₂ Cert.Loss.ll (Finset.sum_congr rfl fun k _ => ?_) e4
  have e0 := Cert.KernelIdeal.Blocks.mu_block m c ⟨t.val, ht⟩ k w (pos h_tiles t w) rfl
  have e1 := Cert.KernelIdeal.Blocks.sigma_block m c ⟨t.val, ht⟩ k w (pos h_tiles t w) rfl
  have e2 := Cert.KernelIdeal.Blocks.weight_block m c ⟨t.val, ht⟩ k w (pos h_tiles t w) rfl
  rw [e0, e1, e2, e4]

end Cert.KernelIdeal.Sums

end
-- ==== Proof.KernelValue.lean ====
/-
  The kernel's result.

  After the pipeline the host takes entry (p, 0, 0) of each accumulator array for the two halves p, adds the two from 0,
  and combines the three sums: minus the purchase sum divided by the number of examples, minus the likelihood sum
  divided by the count of paid examples (at least 1) where that count is positive. With the arrays at the halves' final
  running totals, each half-sum is 0 plus the sum of its term over all 4194304 examples, so the result is the loss of
  the argument arrays.
-/
import proofs.«112673_j86955907875162_1_alg».proof.Proof.KernelArrays
import proofs.«112673_j86955907875162_1_alg».proof.Proof.KernelSums
import Idealize.ShloMosaic.Lib.IdealHost
import Idealize.ShloMosaic.Lib.StableHlo.Run
import Idealize.ShloMosaic.Lib.Tactic

set_option maxRecDepth 16384

noncomputable section

open scoped BigOperators

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx Idealize.ShloMosaic.TileSum
open Idealize.ShloMosaic.Pipeline (Dat)

/-! ## The host lines after the pipeline -/

/-- Entry (p, 0, 0) of an accumulator array for the two halves p, added from 0. -/
def halves (o : FVec Ideal S2x8x128 .f32) : FVec Ideal S_ .f32 :=
  Host.reduceAdd (F := Ideal)
    (fun i => shapeCast S2 (extractStridedSlice S2x1x1 ![0, 0, 0] o slices_S2x8x128_S2x1x1_0_0_0) shapeCasts_S2x1x1_S2 i)
    (constant (F := Ideal) S_ .f32 0x00000000#32) reducesTo_S2_S_d0 h_S_

/-- The last scalar lines, from the three half-sums. -/
def combine (s1 s2 s3 : FVec Ideal S_ .f32) : FVec Ideal S_ .f32 :=
  addf (Host.divf (F := Ideal) (Host.negf (F := Ideal) s1) (constant (F := Ideal) S_ .f32 0x4A800000#32))
    (Host.negf (F := Ideal) (select (cmpf .ogt s3 (constant (F := Ideal) S_ .f32 0x00000000#32))
      (Host.divf (F := Ideal) s2 (maximumf s3 (constant (F := Ideal) S_ .f32 0x3F800000#32)))
      (id (constant (F := Ideal) S_ .f32 0x00000000#32))))

theorem combine_apply (s1 s2 s3 : FVec Ideal S_ .f32) (i : S_.Idx) :
    combine s1 s2 s3 i = Ideal.div (-(s1 i)) (Ideal.ofBits .f32 0x4A800000#32)
      + -(Scalar.select (Ideal.cmp .ogt (s3 i) (Ideal.ofBits .f32 0x00000000#32))
        (Ideal.div (s2 i) (max (s3 i) (Ideal.ofBits .f32 0x3F800000#32))) (Ideal.ofBits .f32 0x00000000#32)) := rfl

/-- The half-sum of an array: the word of +0.0 plus its entries (0, 0, 0) and (1, 0, 0). -/
theorem halves_apply (o : FVec Ideal S2x8x128 .f32) (i : S_.Idx) :
    halves o i = Ideal.ofBits .f32 0x00000000#32 + ∑ p : Fin 2, o (ix3 p (0 : Fin 8) (0 : Fin 128)) := by
  unfold halves
  refine (hostReduceAdd_apply _ _ reducesTo_S2_S_d0 h_S_ i).trans ?_
  refine (Ideal.hostReduceAdd_total reducesTo_S2_S_d0 (fun b => b.elim0) _ _ i).trans ?_
  refine congrArg₂ (· + ·) rfl ?_
  refine (Cert.Loss.sum_idx1 _).trans (Finset.sum_congr rfl fun p _ => ?_)
  refine (shapeCast_apply _ shapeCasts_S2x1x1_S2 (ix1 p) (ix3 p (0 : Fin 1) (0 : Fin 1)) (by
    rw [Shape.rowMajor_val_three, Shape.rowMajor_val_one]
    show (p.val * 1 + 0) * 1 + 0 = p.val
    omega)).trans ?_
  exact extractStridedSlice_apply _ o slices_S2x8x128_S2x1x1_0_0_0 (ix3 p (0 : Fin 1) (0 : Fin 1)) (ix3 p (0 : Fin 8) (0 : Fin 128))
    (fun a => by
      match a with
      | ⟨0, _⟩ => show p.val = 0 + p.val; omega
      | ⟨1, _⟩ => rfl
      | ⟨2, _⟩ => rfl)

/-- The half-sum of an array of final running totals whose tile numbers are sums of a per-example term: 0 plus the sum
    of the term over all examples. -/
theorem halves_total (num : ℕ → EReal) (g : Fin 4194304 → EReal)
    (h : ∀ t : Fin 64, num t.val = ∑ w : Fin 65536, g (pos Cert.KernelIdeal.Sums.h_tiles t w)) (i : S_.Idx) :
    halves (Cert.KernelIdeal.Arrays.accArray num) i = Ideal.ofBits .f32 0x00000000#32 + ∑ a, g a := by
  rw [halves_apply]
  refine congrArg₂ (· + ·) rfl ?_
  refine (Finset.sum_congr rfl fun p _ => ?_).trans (Cert.KernelIdeal.Sums.total_of_tiles num g h)
  exact Cert.KernelIdeal.Acc.running_last num p.val

/-- The loss from three sums each started from the word of +0.0, the mean's negation taken before the division. -/
theorem finish_from_zero (S1 S2 S3 : EReal) :
    Ideal.div (-(Ideal.ofBits .f32 0x00000000#32 + S1)) (Ideal.ofBits .f32 0x4A800000#32)
      + -(Scalar.select (Ideal.cmp .ogt (Ideal.ofBits .f32 0x00000000#32 + S3) (Ideal.ofBits .f32 0x00000000#32))
        (Ideal.div (Ideal.ofBits .f32 0x00000000#32 + S2)
          (max (Ideal.ofBits .f32 0x00000000#32 + S3) (Ideal.ofBits .f32 0x3F800000#32))) (Ideal.ofBits .f32 0x00000000#32))
      = Cert.Loss.finish S1 S2 S3 := by
  unfold Cert.Loss.finish
  rw [Cert.Loss.word_zero]
  simp only [zero_add]

variable (m : (ℓ : Loc nD τ sig) → Buf (Elt Ideal) ℓ) (ρ : Dev nD → PrngReg)

set_option maxHeartbeats 8000000 in
/-- The host lines after the pipeline, applied to what the pipeline leaves in the three accumulator arrays. -/
theorem tail_eq (c : Dev nD) :
    Pipeline.afterTail₀ cfgs (dats m) 0 (V0 m) [hostOps1, hostOps1_1, hostOps1_2] c main_v17
      = combine (halves (Pipeline.withArrays (cfgs 0).spec c (V0 m c) (fun w => (dats m 0 c).arrAt w (cfgs 0).N) (Proc.devRef .tc main_v0_0)))
          (halves (Pipeline.withArrays (cfgs 0).spec c (V0 m c) (fun w => (dats m 0 c).arrAt w (cfgs 0).N) (Proc.devRef .tc main_v0_1)))
          (halves (Pipeline.withArrays (cfgs 0).spec c (V0 m c) (fun w => (dats m 0 c).arrAt w (cfgs 0).N) (Proc.devRef .tc main_v0_2))) := by
  unfold Pipeline.afterTail₀
  simp only [hostOps1, hostOps1_1, hostOps1_2, List.flatten_cons, List.flatten_nil, List.append_nil, List.cons_append,
    List.nil_append]
  after_results_simp
  rfl

/-- The three accumulator arrays as the host lines find them. -/
theorem purchase_array (c : Dev nD) :
    (Pipeline.withArrays (cfgs 0).spec c (V0 m c) (fun w => (dats m 0 c).arrAt w (cfgs 0).N) (Proc.devRef .tc main_v0_0)) = Cert.KernelIdeal.Arrays.accArray (Cert.KernelIdeal.Acc.purchaseNum m c) :=
  (Pipeline.withArrays_arr spec0 launch0.win.arr_inj c _ _ 5).trans (Cert.KernelIdeal.Arrays.final5 m c)
theorem likelihood_array (c : Dev nD) :
    (Pipeline.withArrays (cfgs 0).spec c (V0 m c) (fun w => (dats m 0 c).arrAt w (cfgs 0).N) (Proc.devRef .tc main_v0_1)) = Cert.KernelIdeal.Arrays.accArray (Cert.KernelIdeal.Acc.likelihoodNum m c) :=
  (Pipeline.withArrays_arr spec0 launch0.win.arr_inj c _ _ 6).trans (Cert.KernelIdeal.Arrays.final6 m c)
theorem paid_array (c : Dev nD) :
    (Pipeline.withArrays (cfgs 0).spec c (V0 m c) (fun w => (dats m 0 c).arrAt w (cfgs 0).N) (Proc.devRef .tc main_v0_2)) = Cert.KernelIdeal.Arrays.accArray (Cert.KernelIdeal.Acc.paidNum m c) :=
  (Pipeline.withArrays_arr spec0 launch0.win.arr_inj c _ _ 7).trans (Cert.KernelIdeal.Arrays.final7 m c)

/-- The three half-sums over the argument arrays. -/
theorem purchase_half_sum (c : Dev nD) (i : S_.Idx) :
    halves (Cert.KernelIdeal.Arrays.accArray (Cert.KernelIdeal.Acc.purchaseNum m c)) i
      = Ideal.ofBits .f32 0x00000000#32 + (∑ a : Fin 4194304, Cert.Loss.bce ((m ((c : Thread nD τ).loc main_arg0)) (ix1 a)) ((m ((c : Thread nD τ).loc main_arg4)) (ix1 a))) :=
  halves_total _ (fun a => Cert.Loss.bce ((m ((c : Thread nD τ).loc main_arg0)) (ix1 a)) ((m ((c : Thread nD τ).loc main_arg4)) (ix1 a))) (Cert.KernelIdeal.Sums.purchaseNum_eq m c) i
theorem likelihood_half_sum (c : Dev nD) (i : S_.Idx) :
    halves (Cert.KernelIdeal.Arrays.accArray (Cert.KernelIdeal.Acc.likelihoodNum m c)) i
      = Ideal.ofBits .f32 0x00000000#32 + (∑ a : Fin 4194304, Cert.Loss.ll
      (∑ k : Fin 3, Cert.Loss.comp ((m ((c : Thread nD τ).loc main_arg1)) (ix2 k a)) ((m ((c : Thread nD τ).loc main_arg2)) (ix2 k a)) ((m ((c : Thread nD τ).loc main_arg3)) (ix2 k a)) ((m ((c : Thread nD τ).loc main_arg4)) (ix1 a))) ((m ((c : Thread nD τ).loc main_arg4)) (ix1 a))) :=
  halves_total _ (fun a => Cert.Loss.ll
      (∑ k : Fin 3, Cert.Loss.comp ((m ((c : Thread nD τ).loc main_arg1)) (ix2 k a)) ((m ((c : Thread nD τ).loc main_arg2)) (ix2 k a)) ((m ((c : Thread nD τ).loc main_arg3)) (ix2 k a)) ((m ((c : Thread nD τ).loc main_arg4)) (ix1 a))) ((m ((c : Thread nD τ).loc main_arg4)) (ix1 a)))
    (Cert.KernelIdeal.Sums.likelihoodNum_eq m c) i
theorem paid_half_sum (c : Dev nD) (i : S_.Idx) :
    halves (Cert.KernelIdeal.Arrays.accArray (Cert.KernelIdeal.Acc.paidNum m c)) i
      = Ideal.ofBits .f32 0x00000000#32 + (∑ a : Fin 4194304, Cert.Loss.paid ((m ((c : Thread nD τ).loc main_arg4)) (ix1 a))) :=
  halves_total _ (fun a => Cert.Loss.paid ((m ((c : Thread nD τ).loc main_arg4)) (ix1 a))) (Cert.KernelIdeal.Sums.paidNum_eq m c) i

/-- The kernel's result: the loss of its five argument arrays. -/
theorem result_eq (c : Dev nD) :
    Pipeline.afterTail₀ cfgs (dats m) 0 (V0 m) [hostOps1, hostOps1_1, hostOps1_2] c main_v17
      = fun _ => Cert.Loss.total (m ((c : Thread nD τ).loc main_arg0)) (m ((c : Thread nD τ).loc main_arg4)) (m ((c : Thread nD τ).loc main_arg1)) (m ((c : Thread nD τ).loc main_arg2)) (m ((c : Thread nD τ).loc main_arg3)) := by
  rw [tail_eq, purchase_array, likelihood_array, paid_array]
  funext i
  rw [combine_apply, purchase_half_sum, likelihood_half_sum, paid_half_sum]
  unfold Cert.Loss.total
  generalize (∑ a : Fin 4194304, Cert.Loss.bce ((m ((c : Thread nD τ).loc main_arg0)) (ix1 a)) ((m ((c : Thread nD τ).loc main_arg4)) (ix1 a))) = S1
  generalize (∑ a : Fin 4194304, Cert.Loss.ll
      (∑ k : Fin 3, Cert.Loss.comp ((m ((c : Thread nD τ).loc main_arg1)) (ix2 k a)) ((m ((c : Thread nD τ).loc main_arg2)) (ix2 k a)) ((m ((c : Thread nD τ).loc main_arg3)) (ix2 k a)) ((m ((c : Thread nD τ).loc main_arg4)) (ix1 a))) ((m ((c : Thread nD τ).loc main_arg4)) (ix1 a))) = S2
  generalize (∑ a : Fin 4194304, Cert.Loss.paid ((m ((c : Thread nD τ).loc main_arg4)) (ix1 a))) = S3
  exact finish_from_zero S1 S2 S3

set_option backward.isDefEq.respectTransparency.types false in
/-- The kernel's run: the result at the loss of the argument arrays, the arguments unchanged. -/
theorem run : θ_run defs (onTc (τ := τ) (main (F := Ideal))) ⟨m, fun _ => 0, ρ⟩ fun r => ∀ c : Dev nD,
      r.2.mem ((c.tc : Thread nD τ).loc main_v17)
        = (fun _ => Cert.Loss.total (m ((c : Thread nD τ).loc main_arg0)) (m ((c : Thread nD τ).loc main_arg4)) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 rfl (by decide))).trans (result_eq m c),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩)
    (run_main m ρ)

end Cert.KernelIdeal.RunValue

end
-- ==== Proof.lean ====
/-
  The loss of 4194304 examples — the clamped binary cross-entropy of the purchase probabilities plus the negative mean
  log-likelihood of a three-component discretized logistic mixture over the paid examples — computed two ways, is one
  extended real.

  The kernel cuts the examples into 64 tiles of 65536 and the tiles into two halves of 32. A grid point reduces its tile
  to three numbers (the sum of the purchase terms, the sum of the likelihood terms, the count of paid examples) and adds
  them into three accumulator blocks, reset at each half's first tile; the host adds the two halves' totals and combines
  the three sums. The reference computes the same per-example terms on whole arrays and sums each over all examples at
  once. Per example the two texts differ only in spelling: the kernel's one logistic operation is the host's
  1 / (1 + e^(-x)) at every extended real, the infinities included (so no use is made of the inputs being finite); the
  reference adds 0.0 under one logarithm and clamps with its arguments the other way round; the indicator of a positive
  true value is a one-bit word read unsigned on one side, widened and read signed on the other. The sums agree because
  addition of extended reals is commutative and associative, so the sum over all examples may be taken tile by tile and
  half by half; and dividing by the number of examples, 2^22, commutes with negation.

  The modules: LossTerms (the terms and the loss as functions of extended reals, and the laws between the spellings),
  LibTileSum (a sum over consecutive positions taken tile by tile), RefRun and RefRead (the reference's run and its
  stages read at an index), RefValue (the reference's result is the loss of its arguments), KernelTile (one tile's three
  numbers and the accumulator update), KernelPieces (what a point leaves in the accumulators, in its two cases),
  KernelAcc (the running totals over the grid, by induction on the point), KernelBlocks (a staged block read at a
  position), KernelSums (the tiles' numbers regrouped into the sums over all examples), KernelArrays (the accumulator
  arrays after the run), KernelValue (the host lines after the pipeline, and the kernel's run). The three frames are the
  generated frame runs (the reference's: its run with the result dropped); the idealization rewrote nothing.
-/
import proofs.«112673_j86955907875162_1_alg».proof.Defs
import proofs.«112673_j86955907875162_1_alg».proof.Proof.Gen.Kernel
import proofs.«112673_j86955907875162_1_alg».proof.Proof.Gen.Kernel.Frame
import proofs.«112673_j86955907875162_1_alg».proof.Proof.Gen.KernelIdeal
import proofs.«112673_j86955907875162_1_alg».proof.Proof.Gen.KernelIdeal.Frame
import proofs.«112673_j86955907875162_1_alg».proof.Proof.Gen.ReferenceIdeal
import proofs.«112673_j86955907875162_1_alg».proof.Proof.Gen.Pre_finite_inputs
import proofs.«112673_j86955907875162_1_alg».proof.Proof.RefRun
import proofs.«112673_j86955907875162_1_alg».proof.Proof.RefRead
import proofs.«112673_j86955907875162_1_alg».proof.Proof.RefValue
import proofs.«112673_j86955907875162_1_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the five arguments both programs end with the loss of those arguments. -/
theorem algebraic : Cert.algebraic_KernelIdeal_ReferenceIdeal := by
  intro m ρ m' ρ' _ hagree
  refine ⟨fun c => fun _ => Cert.Loss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v65_eq (F := Ideal) _ _ _ _ _).trans ?_
  refine (Cert.ReferenceIdeal.RefValue.result_eq _ _ _ _ _).trans ?_
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
